-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x64 : Shape := ⟨2, ![50000, 64]⟩
abbrev S800000x64 : Shape := ⟨2, ![800000, 64]⟩
abbrev S50000 : Shape := ⟨1, ![50000]⟩
abbrev S192x20 : Shape := ⟨2, ![192, 20]⟩
abbrev S20 : Shape := ⟨1, ![20]⟩
abbrev S20x20 : Shape := ⟨2, ![20, 20]⟩
abbrev S20x10 : Shape := ⟨2, ![20, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x20 : S_.BroadcastsInDim S192x20 (![] : Fin 0 → Fin S192x20.rank)
  reducesTo_S192x20_S_d0_1 : S192x20.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_
  bcast_S_S20x10 : S_.BroadcastsInDim S20x10 (![] : Fin 0 → Fin S20x10.rank)
  reducesTo_S20x10_S_d0_1 : S20x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S10x1 .f32) (main_v50 : FVec F S10x1 .f32) : IVec S_ 1 :=
  let main_v51 : IVec S10x1 1 := cmpf .olt main_v49 main_v50
  let main_c_19 : IVec S_ 1 := constantI S_ 1 1#1
  let main_v52 : IVec S_ 1 := (fun x v => Host.reduce IntOp.andi x v reducesTo_S10x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S10 .f32) (main_arg10 : FVec F S10x10 .f32) (main_arg11 : FVec F S10 .f32) (main_arg12 : FVec F S10x1 .f32) (main_arg13 : FVec F S1 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10x10 .f32 := Host.absf main_arg10
  let main_cst_14 : FVec F S_ .f32 := constant S_ .f32 0x7F800000#32
  let main_v40 : FVec F S10x10 .f32 := broadcastInDim S10x10 ![] bcast_S_S10x10 main_cst_14
  let main_v41 : IVec S10x10 1 := cmpf .olt main_v39 main_v40
  let main_c_15 : IVec S_ 1 := constantI S_ 1 1#1
  let main_v42 : IVec S_ 1 := (fun x v => Host.reduce IntOp.andi x v reducesTo_S10x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S10x1 .f32 := Host.absf main_arg12
  let main_cst_18 : FVec F S_ .f32 := constant S_ .f32 0x7F800000#32
  let main_v50 : FVec F S10x1 .f32 := broadcastInDim S10x1 ![] bcast_S_S10x1 main_cst_18
  fn_part3 (F := F) main_arg13 main_v48 main_v49 main_v50

def fn_part1 {F : FTy → Type} [FloatOps F] (main_arg6 : FVec F S20x20 .f32) (main_arg7 : FVec F S20 .f32) (main_arg8 : FVec F S20x10 .f32) (main_arg9 : FVec F S10 .f32) (main_arg10 : FVec F S10x10 .f32) (main_arg11 : FVec F S10 .f32) (main_arg12 : FVec F S10x1 .f32) (main_arg13 : FVec F S1 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20x20 .f32 := Host.absf main_arg6
  let main_cst_6 : FVec F S_ .f32 := constant S_ .f32 0x7F800000#32
  let main_v20 : FVec F S20x20 .f32 := broadcastInDim S20x20 ![] bcast_S_S20x20 main_cst_6
  let main_v21 : IVec S20x20 1 := cmpf .olt main_v19 main_v20
  let main_c_7 : IVec S_ 1 := constantI S_ 1 1#1
  let main_v22 : IVec S_ 1 := (fun x v => Host.reduce IntOp.andi x v reducesTo_S20x20_S_d0_1 h_S_) main_v21 main_c_7
  let main_v23 : IVec S_ 1 := andi main_v18 main_v22
  let main_v24 : FVec F S20 .f32 := Host.absf main_arg7
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20x10 .f32 := Host.absf main_arg8
  let main_cst_10 : FVec F S_ .f32 := constant S_ .f32 0x7F800000#32
  let main_v30 : FVec F S20x10 .f32 := broadcastInDim S20x10 ![] bcast_S_S20x10 main_cst_10
  let main_v31 : IVec S20x10 1 := cmpf .olt main_v29 main_v30
  let main_c_11 : IVec S_ 1 := constantI S_ 1 1#1
  let main_v32 : IVec S_ 1 := (fun x v => Host.reduce IntOp.andi x v reducesTo_S20x10_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S2x800000 32) (main_arg1 : FVec F S50000x64 .f32) (main_arg2 : FVec F S800000x64 .f32) (main_arg3 : IVec S50000 32) (main_arg4 : FVec F S192x20 .f32) (main_arg5 : FVec F S20 .f32) (main_arg6 : FVec F S20x20 .f32) (main_arg7 : FVec F S20 .f32) (main_arg8 : FVec F S20x10 .f32) (main_arg9 : FVec F S10 .f32) (main_arg10 : FVec F S10x10 .f32) (main_arg11 : FVec F S10 .f32) (main_arg12 : FVec F S10x1 .f32) (main_arg13 : FVec F S1 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x20 .f32 := Host.absf main_arg4
  let main_cst_2 : FVec F S_ .f32 := constant S_ .f32 0x7F800000#32
  let main_v10 : FVec F S192x20 .f32 := broadcastInDim S192x20 ![] bcast_S_S192x20 main_cst_2
  let main_v11 : IVec S192x20 1 := cmpf .olt main_v9 main_v10
  let main_c_3 : IVec S_ 1 := constantI S_ 1 1#1
  let main_v12 : IVec S_ 1 := (fun x v => Host.reduce IntOp.andi x v reducesTo_S192x20_S_d0_1 h_S_) main_v11 main_c_3
  let main_v13 : IVec S_ 1 := andi main_v8 main_v12
  let main_v14 : FVec F S20 .f32 := Host.absf main_arg5
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg6 main_arg7 main_arg8 main_arg9 main_arg10 main_arg11 main_arg12 main_arg13 main_v13 main_v16
-- ==== Kernel.lean ====
abbrev S2x800000 : Shape := ⟨2, ![2, 800000]⟩
abbrev S50000x64 : Shape := ⟨2, ![50000, 64]⟩
abbrev S800000x64 : Shape := ⟨2, ![800000, 64]⟩
abbrev S50000 : Shape := ⟨1, ![50000]⟩
abbrev S192x20 : Shape := ⟨2, ![192, 20]⟩
abbrev S20 : Shape := ⟨1, ![20]⟩
abbrev S20x20 : Shape := ⟨2, ![20, 20]⟩
abbrev S20x10 : Shape := ⟨2, ![20, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S1x800000 : Shape := ⟨2, ![1, 800000]⟩
abbrev S800000 : Shape := ⟨1, ![800000]⟩
abbrev S64x20 : Shape := ⟨2, ![64, 20]⟩
abbrev S1x20 : Shape := ⟨2, ![1, 20]⟩
abbrev S50000x20 : Shape := ⟨2, ![50000, 20]⟩
abbrev S_ : Shape := ⟨0, ![]⟩
abbrev S800000x1 : Shape := ⟨2, ![800000, 1]⟩
abbrev S800000x20 : Shape := ⟨2, ![800000, 20]⟩
abbrev S10000x20 : Shape := ⟨2, ![10000, 20]⟩
abbrev S10000x64 : Shape := ⟨2, ![10000, 64]⟩
abbrev S50000x10 : Shape := ⟨2, ![50000, 10]⟩
abbrev S1x10 : Shape := ⟨2, ![1, 10]⟩
abbrev S512x10 : Shape := ⟨2, ![512, 10]⟩
abbrev S50000x1 : Shape := ⟨2, ![50000, 1]⟩
abbrev S512x1 : Shape := ⟨2, ![512, 1]⟩
abbrev S1x1 : Shape := ⟨2, ![1, 1]⟩

abbrev nBuf : Space → Nat
  | .hbm => 82
  | .vmem => 10
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S800000x64, .f32⟩
  | .hbm, ⟨3, _⟩ => ⟨S50000, .i32⟩
  | .hbm, ⟨4, _⟩ => ⟨S192x20, .f32⟩
  | .hbm, ⟨5, _⟩ => ⟨S20, .f32⟩
  | .hbm, ⟨6, _⟩ => ⟨S20x20, .f32⟩
  | .hbm, ⟨7, _⟩ => ⟨S20, .f32⟩
  | .hbm, ⟨8, _⟩ => ⟨S20x10, .f32⟩
  | .hbm, ⟨9, _⟩ => ⟨S10, .f32⟩
  | .hbm, ⟨10, _⟩ => ⟨S10x10, .f32⟩
  | .hbm, ⟨11, _⟩ => ⟨S10, .f32⟩
  | .hbm, ⟨12, _⟩ => ⟨S10x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S64x20, .f32⟩
  | .hbm, ⟨19, _⟩ => ⟨S64x20, .bf16⟩
  | .hbm, ⟨20, _⟩ => ⟨S64x20, .f32⟩
  | .hbm, ⟨21, _⟩ => ⟨S64x20, .bf16⟩
  | .hbm, ⟨22, _⟩ => ⟨S64x20, .f32⟩
  | .hbm, ⟨23, _⟩ => ⟨S64x20, .bf16⟩
  | .hbm, ⟨24, _⟩ => ⟨S1x20, .f32⟩
  | .hbm, ⟨25, _⟩ => ⟨S50000x64, .bf16⟩
  | .hbm, ⟨26, _⟩ => ⟨S50000x20, .f32⟩
  | .hbm, ⟨27, _⟩ => ⟨S50000x20, .bf16⟩
  | .hbm, ⟨28, _⟩ => ⟨S50000x20, .f32⟩
  | .hbm, ⟨29, _⟩ => ⟨S50000x20, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x20, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x20, .bf16⟩
  | .hbm, ⟨48, _⟩ => ⟨S800000x20, .f32⟩
  | .hbm, ⟨49, _⟩ => ⟨S_, .f32⟩
  | .hbm, ⟨50, _⟩ => ⟨S50000x20, .f32⟩
  | .hbm, ⟨51, _⟩ => ⟨S800000x1, .i32⟩
  | .hbm, ⟨52, _⟩ => ⟨S50000x20, .f32⟩
  | .hbm, ⟨53, _⟩ => ⟨S50000x20, .f32⟩
  | .hbm, ⟨54, _⟩ => ⟨S1x20, .f32⟩
  | .hbm, ⟨55, _⟩ => ⟨S50000x20, .f32⟩
  | .hbm, ⟨56, _⟩ => ⟨S50000x20, .f32⟩
  | .hbm, ⟨57, _⟩ => ⟨S_, .f32⟩
  | .hbm, ⟨58, _⟩ => ⟨S50000x20, .f32⟩
  | .hbm, ⟨59, _⟩ => ⟨S50000x20, .f32⟩
  | .hbm, ⟨60, _⟩ => ⟨S50000x10, .f32⟩
  | .hbm, ⟨61, _⟩ => ⟨S1x10, .f32⟩
  | .hbm, ⟨62, _⟩ => ⟨S50000x10, .f32⟩
  | .hbm, ⟨63, _⟩ => ⟨S50000x10, .f32⟩
  | .hbm, ⟨64, _⟩ => ⟨S_, .f32⟩
  | .hbm, ⟨65, _⟩ => ⟨S50000x10, .f32⟩
  | .hbm, ⟨66, _⟩ => ⟨S50000x10, .f32⟩
  | .hbm, ⟨67, _⟩ => ⟨S_, .f32⟩
  | .hbm, ⟨68, _⟩ => ⟨S512x10, .f32⟩
  | .hbm, ⟨69, _⟩ => ⟨S50000x1, .i32⟩
  | .hbm, ⟨70, _⟩ => ⟨S512x10, .f32⟩
  | .hbm, ⟨71, _⟩ => ⟨S512x10, .f32⟩
  | .hbm, ⟨72, _⟩ => ⟨S1x10, .f32⟩
  | .hbm, ⟨73, _⟩ => ⟨S512x10, .f32⟩
  | .hbm, ⟨74, _⟩ => ⟨S512x10, .f32⟩
  | .hbm, ⟨75, _⟩ => ⟨S_, .f32⟩
  | .hbm, ⟨76, _⟩ => ⟨S512x10, .f32⟩
  | .hbm, ⟨77, _⟩ => ⟨S512x10, .f32⟩
  | .hbm, ⟨78, _⟩ => ⟨S512x1, .f32⟩
  | .hbm, ⟨79, _⟩ => ⟨S1x1, .f32⟩
  | .hbm, ⟨80, _⟩ => ⟨S512x1, .f32⟩
  | .hbm, ⟨81, _⟩ => ⟨S512x1, .f32⟩
  | .local _ .vmem, ⟨0, _⟩ => ⟨S10000x20, .bf16⟩
  | .local _ .vmem, ⟨1, _⟩ => ⟨S10000x20, .bf16⟩
  | .local _ .vmem, ⟨2, _⟩ => ⟨S10000x20, .bf16⟩
  | .local _ .vmem, ⟨3, _⟩ => ⟨S10000x20, .bf16⟩
  | .local _ .vmem, ⟨4, _⟩ => ⟨S10000x64, .f32⟩
  | .local _ .vmem, ⟨5, _⟩ => ⟨S10000x64, .f32⟩
  | .local _ .vmem, ⟨6, _⟩ => ⟨S64x20, .bf16⟩
  | .local _ .vmem, ⟨7, _⟩ => ⟨S1x20, .f32⟩
  | .local _ .vmem, ⟨8, _⟩ => ⟨S10000x20, .f32⟩
  | .local _ .vmem, ⟨9, _⟩ => ⟨S10000x20, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_cst : Ref sig .tc := ⟨.hbm, 64, rfl⟩
abbrev main_call1_v0 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call2_cst : Ref sig .tc := ⟨.hbm, 75, rfl⟩
abbrev main_call2_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x20 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x20 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x20 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S192x20_S64x20_0_0 : S192x20.Slices ![0, 0] S64x20
  bitsLt_bf16_f32 : FTy.bits .bf16 < FTy.bits .f32
  slices_S192x20_S64x20_64_0 : S192x20.Slices ![64, 0] S64x20
  slices_S192x20_S64x20_128_0 : S192x20.Slices ![128, 0] S64x20
  shapeCasts_S20_S1x20 : S20.ShapeCasts S1x20
  bcast_S_S800000 : S_.BroadcastsInDim S800000 (![] : Fin 0 → Fin S800000.rank)
  bcast_S800000_S800000x1_0 : S800000.BroadcastsInDim S800000x1 (![0] : Fin 1 → Fin S800000x1.rank)
  inb_S10000x64_S10000x64_0_0 : ∀ a, (![0, 0] : Fin 2 → Nat) a + S10000x64.size a ≤ S10000x64.size a
  h_S10000x64 : 0 < S10000x64.numel
  inb_S64x20_S64x20_0_0 : ∀ a, (![0, 0] : Fin 2 → Nat) a + S64x20.size a ≤ S64x20.size a
  h_S64x20 : 0 < S64x20.numel
  shapeCasts_S64x20_S64x20 : S64x20.ShapeCasts S64x20
  inb_S10000x20_S10000x20_0_0 : ∀ a, (![0, 0] : Fin 2 → Nat) a + S10000x20.size a ≤ S10000x20.size a
  h_S10000x20 : 0 < S10000x20.numel
  shapeCasts_S10000x20_S10000x20 : S10000x20.ShapeCasts S10000x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S10000x20 : S1x20.Broadcasts S10000x20
  bcast_S_S50000x20 : S_.BroadcastsInDim S50000x20 (![] : Fin 0 → Fin S50000x20.rank)
  bcast_S20_S1x20_1 : S20.BroadcastsInDim S1x20 (![1] : Fin 1 → Fin S1x20.rank)
  bcast_S1x20_S50000x20_0_1 : S1x20.BroadcastsInDim S50000x20 (![0, 1] : Fin 2 → Fin S50000x20.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S50000x10 : S_.BroadcastsInDim S50000x10 (![] : Fin 0 → Fin S50000x10.rank)
  bcast_S_S512x10 : S_.BroadcastsInDim S512x10 (![] : Fin 0 → Fin S512x10.rank)
  bcast_S50000_S50000x1_0 : S50000.BroadcastsInDim S50000x1 (![0] : Fin 1 → Fin S50000x1.rank)
  bcast_S1x10_S512x10_0_1 : S1x10.BroadcastsInDim S512x10 (![0, 1] : Fin 2 → Fin S512x10.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S50000x64_S64x20_S50000x20_1_0_0_1_n_n_wf : DotDims.WF S50000x64 S64x20 S50000x20 [1] [0] [0] [1] [] []
  gather_S50000x20_S800000x1_S800000x20_1_0_n_n_0_1_120_wf : GatherDims.WF S50000x20 S800000x1 S800000x20 [1] [0] [] [0] [] 1 ![1, 20]
  dot_S10000x64_S64x20_S10000x20_1_0_0_1_n_n_wf : DotDims.WF S10000x64 S64x20 S10000x20 [1] [0] [0] [1] [] []
  scatter_S50000x20_S800000x1_S800000x20_1_0_0_1_wf : ScatterDims.WF S50000x20 S800000x1 S800000x20 [1] [0] [0] 1
  dot_S50000x20_S20x20_S50000x20_1_0_0_1_n_n_wf : DotDims.WF S50000x20 S20x20 S50000x20 [1] [0] [0] [1] [] []
  dot_S50000x20_S20x10_S50000x10_1_0_0_1_n_n_wf : DotDims.WF S50000x20 S20x10 S50000x10 [1] [0] [0] [1] [] []
  scatter_S512x10_S50000x1_S50000x10_1_0_0_1_wf : ScatterDims.WF S512x10 S50000x1 S50000x10 [1] [0] [0] 1
  dot_S512x10_S10x10_S512x10_1_0_0_1_n_n_wf : DotDims.WF S512x10 S10x10 S512x10 [1] [0] [0] [1] [] []
  dot_S512x10_S10x1_S512x1_1_0_0_1_n_n_wf : DotDims.WF S512x10 S10x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x20.size a ≤ S800000x20.size a
  hwx0_0 : ∀ i : grid0.Coords, EltTy.bits .bf16 = 32 ∨ (Rect.block (s := S800000x20) S10000x20.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x20.size a ≤ S800000x20.size a
  hwx0_1 : ∀ i : grid0.Coords, EltTy.bits .bf16 = 32 ∨ (Rect.block (s := S800000x20) S10000x20.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S800000x64.size a
  hwx0_2 : ∀ i : grid0.Coords, EltTy.bits .f32 = 32 ∨ (Rect.block (s := S800000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x20.size a ≤ S64x20.size a
  hwx0_3 : ∀ i : grid0.Coords, EltTy.bits .bf16 = 32 ∨ (Rect.block (s := S64x20) S64x20.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x20.size a ≤ S800000x20.size a
  hwx0_5 : ∀ i : grid0.Coords, EltTy.bits .f32 = 32 ∨ (Rect.block (s := S800000x20) S10000x20.size (cc0_transform_5 i) (hinb0_5 i)).WholeWords (EltTy.packing .f32)

variable [Facts₀]

def dot_S50000x64_S64x20_S50000x20_1_0_0_1_n_n : DotDims S50000x64 S64x20 S50000x20 where
  lhsContracting := [1]
  rhsContracting := [0]
  lhsNonContracting := [0]
  rhsNonContracting := [1]
  lhsBatch := []
  rhsBatch := []
  wf := dot_S50000x64_S64x20_S50000x20_1_0_0_1_n_n_wf
def gather_S50000x20_S800000x1_S800000x20_1_0_n_n_0_1_120 : GatherDims S50000x20 S800000x1 S800000x20 where
  offsetDims := [1]
  collapsedSliceDims := [0]
  operandBatchingDims := []
  startIndicesBatchingDims := []
  startIndexMap := [0]
  indexVectorDim := 1
  sliceSizes := ![1, 20]
  wf := gather_S50000x20_S800000x1_S800000x20_1_0_n_n_0_1_120_wf
def dot_S10000x64_S64x20_S10000x20_1_0_0_1_n_n : DotDims S10000x64 S64x20 S10000x20 where
  lhsContracting := [1]
  rhsContracting := [0]
  lhsNonContracting := [0]
  rhsNonContracting := [1]
  lhsBatch := []
  rhsBatch := []
  wf := dot_S10000x64_S64x20_S10000x20_1_0_0_1_n_n_wf
def scatter_S50000x20_S800000x1_S800000x20_1_0_0_1 : ScatterDims S50000x20 S800000x1 S800000x20 where
  updateWindowDims := [1]
  insertedWindowDims := [0]
  scatterDimsToOperandDims := [0]
  indexVectorDim := 1
  wf := scatter_S50000x20_S800000x1_S800000x20_1_0_0_1_wf
def dot_S50000x20_S20x20_S50000x20_1_0_0_1_n_n : DotDims S50000x20 S20x20 S50000x20 where
  lhsContracting := [1]
  rhsContracting := [0]
  lhsNonContracting := [0]
  rhsNonContracting := [1]
  lhsBatch := []
  rhsBatch := []
  wf := dot_S50000x20_S20x20_S50000x20_1_0_0_1_n_n_wf
def dot_S50000x20_S20x10_S50000x10_1_0_0_1_n_n : DotDims S50000x20 S20x10 S50000x10 where
  lhsContracting := [1]
  rhsContracting := [0]
  lhsNonContracting := [0]
  rhsNonContracting := [1]
  lhsBatch := []
  rhsBatch := []
  wf := dot_S50000x20_S20x10_S50000x10_1_0_0_1_n_n_wf
def scatter_S512x10_S50000x1_S50000x10_1_0_0_1 : ScatterDims S512x10 S50000x1 S50000x10 where
  updateWindowDims := [1]
  insertedWindowDims := [0]
  scatterDimsToOperandDims := [0]
  indexVectorDim := 1
  wf := scatter_S512x10_S50000x1_S50000x10_1_0_0_1_wf
def dot_S512x10_S10x10_S512x10_1_0_0_1_n_n : DotDims S512x10 S10x10 S512x10 where
  lhsContracting := [1]
  rhsContracting := [0]
  lhsNonContracting := [0]
  rhsNonContracting := [1]
  lhsBatch := []
  rhsBatch := []
  wf := dot_S512x10_S10x10_S512x10_1_0_0_1_n_n_wf
def dot_S512x10_S10x1_S512x1_1_0_0_1_n_n : DotDims S512x10 S10x1 S512x1 where
  lhsContracting := [1]
  rhsContracting := [0]
  lhsNonContracting := [0]
  rhsNonContracting := [1]
  lhsBatch := []
  rhsBatch := []
  wf := dot_S512x10_S10x1_S512x1_1_0_0_1_n_n_wf

abbrev win0_0 : Pipeline.Window sig grid0 :=
  Pipeline.Window.ofSpec (Memref.whole main_v22) S10000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S10000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S10000x20.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x800000 : Shape := ⟨2, ![2, 800000]⟩
abbrev S50000x64 : Shape := ⟨2, ![50000, 64]⟩
abbrev S800000x64 : Shape := ⟨2, ![800000, 64]⟩
abbrev S50000 : Shape := ⟨1, ![50000]⟩
abbrev S192x20 : Shape := ⟨2, ![192, 20]⟩
abbrev S20 : Shape := ⟨1, ![20]⟩
abbrev S20x20 : Shape := ⟨2, ![20, 20]⟩
abbrev S20x10 : Shape := ⟨2, ![20, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S800000x20 : Shape := ⟨2, ![800000, 20]⟩
abbrev S1x20 : Shape := ⟨2, ![1, 20]⟩
abbrev S50000x20 : Shape := ⟨2, ![50000, 20]⟩
abbrev S50000x10 : Shape := ⟨2, ![50000, 10]⟩
abbrev S1x10 : Shape := ⟨2, ![1, 10]⟩
abbrev S512x10 : Shape := ⟨2, ![512, 10]⟩
abbrev S50000x1 : Shape := ⟨2, ![50000, 1]⟩
abbrev S512x1 : Shape := ⟨2, ![512, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S800000x64, .f32⟩
  | .hbm, ⟨3, _⟩ => ⟨S50000, .i32⟩
  | .hbm, ⟨4, _⟩ => ⟨S192x20, .f32⟩
  | .hbm, ⟨5, _⟩ => ⟨S20, .f32⟩
  | .hbm, ⟨6, _⟩ => ⟨S20x20, .f32⟩
  | .hbm, ⟨7, _⟩ => ⟨S20, .f32⟩
  | .hbm, ⟨8, _⟩ => ⟨S20x10, .f32⟩
  | .hbm, ⟨9, _⟩ => ⟨S10, .f32⟩
  | .hbm, ⟨10, _⟩ => ⟨S10x10, .f32⟩
  | .hbm, ⟨11, _⟩ => ⟨S10, .f32⟩
  | .hbm, ⟨12, _⟩ => ⟨S10x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x192, .f32⟩
  | .hbm, ⟨37, _⟩ => ⟨S800000x20, .f32⟩
  | .hbm, ⟨38, _⟩ => ⟨S1x20, .f32⟩
  | .hbm, ⟨39, _⟩ => ⟨S800000x20, .f32⟩
  | .hbm, ⟨40, _⟩ => ⟨S800000x20, .f32⟩
  | .hbm, ⟨41, _⟩ => ⟨S_, .f32⟩
  | .hbm, ⟨42, _⟩ => ⟨S800000x20, .f32⟩
  | .hbm, ⟨43, _⟩ => ⟨S800000x20, .f32⟩
  | .hbm, ⟨44, _⟩ => ⟨S_, .f32⟩
  | .hbm, ⟨45, _⟩ => ⟨S50000x20, .f32⟩
  | .hbm, ⟨46, _⟩ => ⟨S800000x1, .i32⟩
  | .hbm, ⟨47, _⟩ => ⟨S50000x20, .f32⟩
  | .hbm, ⟨48, _⟩ => ⟨S50000x20, .f32⟩
  | .hbm, ⟨49, _⟩ => ⟨S1x20, .f32⟩
  | .hbm, ⟨50, _⟩ => ⟨S50000x20, .f32⟩
  | .hbm, ⟨51, _⟩ => ⟨S50000x20, .f32⟩
  | .hbm, ⟨52, _⟩ => ⟨S_, .f32⟩
  | .hbm, ⟨53, _⟩ => ⟨S50000x20, .f32⟩
  | .hbm, ⟨54, _⟩ => ⟨S50000x20, .f32⟩
  | .hbm, ⟨55, _⟩ => ⟨S50000x10, .f32⟩
  | .hbm, ⟨56, _⟩ => ⟨S1x10, .f32⟩
  | .hbm, ⟨57, _⟩ => ⟨S50000x10, .f32⟩
  | .hbm, ⟨58, _⟩ => ⟨S50000x10, .f32⟩
  | .hbm, ⟨59, _⟩ => ⟨S_, .f32⟩
  | .hbm, ⟨60, _⟩ => ⟨S50000x10, .f32⟩
  | .hbm, ⟨61, _⟩ => ⟨S50000x10, .f32⟩
  | .hbm, ⟨62, _⟩ => ⟨S_, .f32⟩
  | .hbm, ⟨63, _⟩ => ⟨S512x10, .f32⟩
  | .hbm, ⟨64, _⟩ => ⟨S50000x1, .i32⟩
  | .hbm, ⟨65, _⟩ => ⟨S512x10, .f32⟩
  | .hbm, ⟨66, _⟩ => ⟨S512x10, .f32⟩
  | .hbm, ⟨67, _⟩ => ⟨S1x10, .f32⟩
  | .hbm, ⟨68, _⟩ => ⟨S512x10, .f32⟩
  | .hbm, ⟨69, _⟩ => ⟨S512x10, .f32⟩
  | .hbm, ⟨70, _⟩ => ⟨S_, .f32⟩
  | .hbm, ⟨71, _⟩ => ⟨S512x10, .f32⟩
  | .hbm, ⟨72, _⟩ => ⟨S512x10, .f32⟩
  | .hbm, ⟨73, _⟩ => ⟨S512x1, .f32⟩
  | .hbm, ⟨74, _⟩ => ⟨S1x1, .f32⟩
  | .hbm, ⟨75, _⟩ => ⟨S512x1, .f32⟩
  | .hbm, ⟨76, _⟩ => ⟨S512x1, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_cst : Ref sig .tc := ⟨.hbm, 52, rfl⟩
abbrev main_call1_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_cst : Ref sig .tc := ⟨.hbm, 59, rfl⟩
abbrev main_call2_v0 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call3_cst : Ref sig .tc := ⟨.hbm, 70, rfl⟩
abbrev main_call3_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S20_S1x20_1 : S20.BroadcastsInDim S1x20 (![1] : Fin 1 → Fin S1x20.rank)
  bcast_S1x20_S800000x20_0_1 : S1x20.BroadcastsInDim S800000x20 (![0, 1] : Fin 2 → Fin S800000x20.rank)
  bcast_S_S800000x20 : S_.BroadcastsInDim S800000x20 (![] : Fin 0 → Fin S800000x20.rank)
  bcast_S_S50000x20 : S_.BroadcastsInDim S50000x20 (![] : Fin 0 → Fin S50000x20.rank)
  bcast_S1x20_S50000x20_0_1 : S1x20.BroadcastsInDim S50000x20 (![0, 1] : Fin 2 → Fin S50000x20.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S50000x10 : S_.BroadcastsInDim S50000x10 (![] : Fin 0 → Fin S50000x10.rank)
  bcast_S_S512x10 : S_.BroadcastsInDim S512x10 (![] : Fin 0 → Fin S512x10.rank)
  bcast_S50000_S50000x1_0 : S50000.BroadcastsInDim S50000x1 (![0] : Fin 1 → Fin S50000x1.rank)
  bcast_S1x10_S512x10_0_1 : S1x10.BroadcastsInDim S512x10 (![0, 1] : Fin 2 → Fin S512x10.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x64_S800000x1_S800000x64_1_0_n_n_0_1_164_wf : GatherDims.WF S50000x64 S800000x1 S800000x64 [1] [0] [] [0] [] 1 ![1, 64]
  dot_S800000x192_S192x20_S800000x20_1_0_0_1_n_n_wf : DotDims.WF S800000x192 S192x20 S800000x20 [1] [0] [0] [1] [] []
  scatter_S50000x20_S800000x1_S800000x20_1_0_0_1_wf : ScatterDims.WF S50000x20 S800000x1 S800000x20 [1] [0] [0] 1
  dot_S50000x20_S20x20_S50000x20_1_0_0_1_n_n_wf : DotDims.WF S50000x20 S20x20 S50000x20 [1] [0] [0] [1] [] []
  dot_S50000x20_S20x10_S50000x10_1_0_0_1_n_n_wf : DotDims.WF S50000x20 S20x10 S50000x10 [1] [0] [0] [1] [] []
  scatter_S512x10_S50000x1_S50000x10_1_0_0_1_wf : ScatterDims.WF S512x10 S50000x1 S50000x10 [1] [0] [0] 1
  dot_S512x10_S10x10_S512x10_1_0_0_1_n_n_wf : DotDims.WF S512x10 S10x10 S512x10 [1] [0] [0] [1] [] []
  dot_S512x10_S10x1_S512x1_1_0_0_1_n_n_wf : DotDims.WF S512x10 S10x1 S512x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x20_S800000x20_1_0_0_1_n_n : DotDims S800000x192 S192x20 S800000x20 where
  lhsContracting := [1]
  rhsContracting := [0]
  lhsNonContracting := [0]
  rhsNonContracting := [1]
  lhsBatch := []
  rhsBatch := []
  wf := dot_S800000x192_S192x20_S800000x20_1_0_0_1_n_n_wf
def scatter_S50000x20_S800000x1_S800000x20_1_0_0_1 : ScatterDims S50000x20 S800000x1 S800000x20 where
  updateWindowDims := [1]
  insertedWindowDims := [0]
  scatterDimsToOperandDims := [0]
  indexVectorDim := 1
  wf := scatter_S50000x20_S800000x1_S800000x20_1_0_0_1_wf
def dot_S50000x20_S20x20_S50000x20_1_0_0_1_n_n : DotDims S50000x20 S20x20 S50000x20 where
  lhsContracting := [1]
  rhsContracting := [0]
  lhsNonContracting := [0]
  rhsNonContracting := [1]
  lhsBatch := []
  rhsBatch := []
  wf := dot_S50000x20_S20x20_S50000x20_1_0_0_1_n_n_wf
def dot_S50000x20_S20x10_S50000x10_1_0_0_1_n_n : DotDims S50000x20 S20x10 S50000x10 where
  lhsContracting := [1]
  rhsContracting := [0]
  lhsNonContracting := [0]
  rhsNonContracting := [1]
  lhsBatch := []
  rhsBatch := []
  wf := dot_S50000x20_S20x10_S50000x10_1_0_0_1_n_n_wf
def scatter_S512x10_S50000x1_S50000x10_1_0_0_1 : ScatterDims S512x10 S50000x1 S50000x10 where
  updateWindowDims := [1]
  insertedWindowDims := [0]
  scatterDimsToOperandDims := [0]
  indexVectorDim := 1
  wf := scatter_S512x10_S50000x1_S50000x10_1_0_0_1_wf
def dot_S512x10_S10x10_S512x10_1_0_0_1_n_n : DotDims S512x10 S10x10 S512x10 where
  lhsContracting := [1]
  rhsContracting := [0]
  lhsNonContracting := [0]
  rhsNonContracting := [1]
  lhsBatch := []
  rhsBatch := []
  wf := dot_S512x10_S10x10_S512x10_1_0_0_1_n_n_wf
def dot_S512x10_S10x1_S512x1_1_0_0_1_n_n : DotDims S512x10 S10x1 S512x1 where
  lhsContracting := [1]
  rhsContracting := [0]
  lhsNonContracting := [0]
  rhsNonContracting := [1]
  lhsBatch := []
  rhsBatch := []
  wf := dot_S512x10_S10x1_S512x1_1_0_0_1_n_n_wf

class Facts : Prop extends Facts₀ where

variable [Facts]
-- ==== Proof.Tail.lean ====
/-
  What both programs do with the message array, as one function.

  From the messages (800000 × 20) and the raw destination words: add every edge's message into its destination node's row
  (50000 × 20, from zero); two affine layers each followed by the rectifier (to 50000 × 20, then 50000 × 10); add every
  node's row into its graph's row (512 × 10, from zero); an affine layer with the rectifier (512 × 10) and a last affine
  layer (512 × 1). Nothing here is ever opened: the two programs apply these same operations, so it is enough that their
  message arrays agree.
-/
import proofs.«142475_j64630667870278_2_alg».proof.Proof.Gen.ReferenceIdeal.Read

noncomputable section

namespace Cert.Msg

open Idealize.ShloMosaic Cert.ReferenceIdeal Cert.ReferenceIdeal.Gen Cert.ReferenceIdeal.Read

variable {F : FTy → Type} [FloatOps F]

/-- The operations after the message array: two segment sums and four affine layers. -/
def tail (msg : (⟨S800000x20, .f32⟩ : BufTy).Contents (Elt F)) (dst : (⟨S800000, .i32⟩ : BufTy).Contents (Elt F))
    (x3 : (⟨S50000, .i32⟩ : BufTy).Contents (Elt F)) (x6 : (⟨S20x20, .f32⟩ : BufTy).Contents (Elt F))
    (x7 : (⟨S20, .f32⟩ : BufTy).Contents (Elt F)) (x8 : (⟨S20x10, .f32⟩ : BufTy).Contents (Elt F))
    (x9 : (⟨S10, .f32⟩ : BufTy).Contents (Elt F)) (x10 : (⟨S10x10, .f32⟩ : BufTy).Contents (Elt F))
    (x11 : (⟨S10, .f32⟩ : BufTy).Contents (Elt F)) (x12 : (⟨S10x1, .f32⟩ : BufTy).Contents (Elt F))
    (x13 : (⟨S1, .f32⟩ : BufTy).Contents (Elt F)) : (⟨S512x1, .f32⟩ : BufTy).Contents (Elt F) :=
  addf (Host.dotGeneral dot_S512x10_S10x1_S512x1_1_0_0_1_n_n none
    (maximumf (addf (Host.dotGeneral dot_S512x10_S10x10_S512x10_1_0_0_1_n_n none
      (Host.scatterAdd scatter_S512x10_S50000x1_S50000x10_1_0_0_1 (val_main_v37 (F := F)) (val_main_v38 (F := F) x3)
        (maximumf (addf (Host.dotGeneral dot_S50000x20_S20x10_S50000x10_1_0_0_1_n_n none
          (maximumf (addf (Host.dotGeneral dot_S50000x20_S20x20_S50000x20_1_0_0_1_n_n none
            (Host.scatterAdd scatter_S50000x20_S800000x1_S800000x20_1_0_0_1 (val_main_v24 (F := F))
              (broadcastInDim S800000x1 ![0] bcast_S800000_S800000x1_0 dst) msg) x6) (val_main_v29 (F := F) x7))
            (val_main_call1_v0 (F := F))) x8) (val_main_v34 (F := F) x9)) (val_main_call2_v0 (F := F)))) x10)
      (val_main_v42 (F := F) x11)) (val_main_call3_v0 (F := F))) x12) (val_main_v47 (F := F) x13)

/-- The reference's result is the tail of its message stage. -/
theorem ref_tail (x0 : (⟨S2x800000, .i32⟩ : BufTy).Contents (Elt F)) (x1 : (⟨S50000x64, .f32⟩ : BufTy).Contents (Elt F))
    (x2 : (⟨S800000x64, .f32⟩ : BufTy).Contents (Elt F)) (x3 : (⟨S50000, .i32⟩ : BufTy).Contents (Elt F))
    (x4 : (⟨S192x20, .f32⟩ : BufTy).Contents (Elt F)) (x5 : (⟨S20, .f32⟩ : BufTy).Contents (Elt F))
    (x6 : (⟨S20x20, .f32⟩ : BufTy).Contents (Elt F)) (x7 : (⟨S20, .f32⟩ : BufTy).Contents (Elt F))
    (x8 : (⟨S20x10, .f32⟩ : BufTy).Contents (Elt F)) (x9 : (⟨S10, .f32⟩ : BufTy).Contents (Elt F))
    (x10 : (⟨S10x10, .f32⟩ : BufTy).Contents (Elt F)) (x11 : (⟨S10, .f32⟩ : BufTy).Contents (Elt F))
    (x12 : (⟨S10x1, .f32⟩ : BufTy).Contents (Elt F)) (x13 : (⟨S1, .f32⟩ : BufTy).Contents (Elt F)) :
    val_main_v48 (F := F) x0 x1 x2 x3 x4 x5 x6 x7 x8 x9 x10 x11 x12 x13
      = tail (val_main_v23 (F := F) x0 x1 x2 x4 x5) (val_main_v3 (F := F) x0) x3 x6 x7 x8 x9 x10 x11 x12 x13 := by
  unfold val_main_v48 val_main_v45 val_main_v44 val_main_v43 val_main_v40 val_main_v39 val_main_v36 val_main_v35
    val_main_v32 val_main_v31 val_main_v30 val_main_v27 val_main_v26 val_main_v25 tail
  rfl

end Cert.Msg

end
-- ==== Proof.LibRowGather.lean ====
/-
  A row gather read at an index.

  What `x[idx]` of a table `x : [N, C]` at a column of start indices `idx : [R, 1]` lowers to: a gather whose offset axis is
  the result's axis 1, whose collapsed axis is the table's axis 0, whose start-index map names the table's axis 0, with the
  index vector on the start indices' axis 1 and slices of one whole row (sizes 1 × C). The result element (t, j) is the table
  at row `idx (t, 0)` — read as a signed integer and clamped into [0, N − 1], as every start index of a gather is clamped so
  that its slice fits — and column j.
-/
import Idealize.ShloMosaic.Lib.ValueIdx

noncomputable section

namespace Cert.Lib.RowGather

open Idealize.ShloMosaic Idealize.ShloMosaic.ValueIdx

variable {α : Type}

/-- The dimension numbers of a row gather from `[N, C]` at start indices `[R, 1]` into `[R, C]`; their conditions `wf` are
    decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start-index word selects in a table of `N` rows: the word read signed, clamped into [0, N − 1]. -/
def rowAt (N : Nat) (hN : 0 < N) {w : Nat} (v : BitVec w) : Fin N := ⟨min v.toInt.toNat (N - 1), by omega⟩

/-- THE ROW GATHER READ AT (t, j): the table at the row the start index `idx (t, 0)` selects, column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (j : Fin C) :
    Host.gather (rowDims N R C wf) x idx (ix2 t j) = x (ix2 (rowAt N hN (idx (ix2 t (0 : Fin 1)))) j) := by
  unfold Host.gather
  congr 1
  funext a
  refine Fin.ext ?_
  show (rowDims N R C wf).start (ix2 t j) idx a + (rowDims N R C wf).batchCoord (ix2 t j) a
    + (rowDims N R C wf).offCoord (ix2 t j) a = _
  rw [GatherDims.batchCoord_eq_zero _ _ _ List.not_mem_nil]
  have ha : a = (0 : Fin 2) ∨ a = (1 : Fin 2) := by
    rcases a with ⟨v, hv⟩
    have hv' : v < 2 := hv
    rcases v with _ | _ | v
    · exact Or.inl rfl
    · exact Or.inr rfl
    · omega
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 t j) ⟨List.idxOf (0 : Fin 2) (rowDims N R C wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  · have hst : (rowDims N R C wf).start (ix2 t j) idx (1 : Fin 2) = 0 := by
      unfold GatherDims.start
      rw [dif_neg (show (1 : Fin 2) ∉ ([0] : List (Fin 2)) by decide)]
    have hoff : (rowDims N R C wf).offCoord (ix2 t j) (1 : Fin 2) = j.val := by
      unfold GatherDims.offCoord
      rw [dif_pos ((GatherDims.mem_sKept _ _).mpr ⟨(show (1 : Fin 2) ∉ ([0] : List (Fin 2)) by decide), List.not_mem_nil⟩)]
      rfl
    rw [hst, hoff]
    show 0 + 0 + j.val = j.val
    omega

end Cert.Lib.RowGather

end
-- ==== Proof.MsgSpec.lean ====
/-
  The message array, index by index.

  An edge e of the graph has a source node and a destination node, named by two columns of start-index words (one word per
  edge). The message of edge e in channel j is

      max ( ((Σ_k node(src e, k) · W(k, j) + Σ_k node(dst e, k) · W(64 + k, j)) + Σ_k edge(e, k) · W(128 + k, j)) + b(j) , 0 )

  over k < 64: the three row blocks of the 192 × 20 weight matrix W meet, in order, the source node's 64 features, the
  destination node's 64 features and the edge's own 64 features. The node a word names is the word read as a signed
  integer and clamped into [0, 49999]. This is the one function both programs' message arrays are shown to be.
  Also here: a sum over 192 consecutive terms is the sum of its three blocks of 64, in any commutative monoid.
-/
import Idealize.ShloMosaic.PureOps.Ideal
import Idealize.ShloMosaic.Lib.ValueIdx
import proofs.«142475_j64630667870278_2_alg».proof.Proof.LibRowGather

noncomputable section

namespace Cert.Msg

open Idealize.ShloMosaic Idealize.ShloMosaic.ValueIdx Cert.Lib.RowGather

abbrev SCol : Shape := ⟨2, ![800000, 1]⟩
abbrev SNode : Shape := ⟨2, ![50000, 64]⟩
abbrev SEdge : Shape := ⟨2, ![800000, 64]⟩
abbrev SW : Shape := ⟨2, ![192, 20]⟩
abbrev SB : Shape := ⟨1, ![20]⟩
abbrev SMsg : Shape := ⟨2, ![800000, 20]⟩

/-- Row `64 · blk + k` of the weight matrix: row k of its block `blk` (0: source features, 1: destination features,
    2: edge features). -/
def wrow (blk : Fin 3) (k : Fin 64) : Fin 192 := ⟨64 * blk.val + k.val, by omega⟩

/-- The node that edge e's start-index word names: the word read signed, clamped into [0, 49999]. -/
def node (col : SCol.Idx → BitVec 32) (e : Fin 800000) : Fin 50000 :=
  rowAt 50000 (by decide) (col (ix2 e (0 : Fin 1)))

/-- The message of edge e in channel j before the rectifier. -/
def pre (cs cd : SCol.Idx → BitVec 32) (x : SNode.Idx → EReal) (ea : SEdge.Idx → EReal) (W : SW.Idx → EReal)
    (b : SB.Idx → EReal) (e : Fin 800000) (j : Fin 20) : EReal :=
  ((∑ k : Fin 64, x (ix2 (node cs e) k) * W (ix2 (wrow 0 k) j)
      + ∑ k : Fin 64, x (ix2 (node cd e) k) * W (ix2 (wrow 1 k) j))
    + ∑ k : Fin 64, ea (ix2 e k) * W (ix2 (wrow 2 k) j)) + b (ix1 j)

/-- The message of edge e in channel j. -/
def msgAt (cs cd : SCol.Idx → BitVec 32) (x : SNode.Idx → EReal) (ea : SEdge.Idx → EReal) (W : SW.Idx → EReal)
    (b : SB.Idx → EReal) (e : Fin 800000) (j : Fin 20) : EReal :=
  max (pre cs cd x ea W b e j) 0

/-- The message array. -/
def msg (cs cd : SCol.Idx → BitVec 32) (x : SNode.Idx → EReal) (ea : SEdge.Idx → EReal) (W : SW.Idx → EReal)
    (b : SB.Idx → EReal) : SMsg.Idx → EReal :=
  fun i => msgAt cs cd x ea W b ⟨(i 0).val, idx2_lt0 i⟩ ⟨(i 1).val, idx2_lt1 i⟩

theorem msg_apply (cs cd : SCol.Idx → BitVec 32) (x : SNode.Idx → EReal) (ea : SEdge.Idx → EReal) (W : SW.Idx → EReal)
    (b : SB.Idx → EReal) (e : Fin 800000) (j : Fin 20) :
    msg cs cd x ea W b (ix2 e j) = msgAt cs cd x ea W b e j := rfl

/-- A sum of 192 terms is the sum of its three consecutive blocks of 64. -/
theorem sum_three_blocks {M : Type} [AddCommMonoid M] (f : Fin 192 → M) :
    ∑ k : Fin 192, f k = (∑ k : Fin 64, f (wrow 0 k) + ∑ k : Fin 64, f (wrow 1 k)) + ∑ k : Fin 64, f (wrow 2 k) := by
  have h1 : ∑ k : Fin 192, f k = ∑ k : Fin (128 + 64), f (Fin.cast (by norm_num) k) := by
    exact (Fin.sum_congr' f (by norm_num : 128 + 64 = 192)).symm
  have h2 : ∀ g : Fin 128 → M, ∑ k : Fin 128, g k = ∑ k : Fin (64 + 64), g (Fin.cast (by norm_num) k) := fun g =>
    (Fin.sum_congr' g (by norm_num : 64 + 64 = 128)).symm
  rw [h1, Fin.sum_univ_add, h2, Fin.sum_univ_add]
  refine congrArg₂ (· + ·) (congrArg₂ (· + ·) ?_ ?_) ?_ <;>
    exact Finset.sum_congr rfl fun k _ => congrArg f (Fin.ext (by simp [wrow]; try omega))

end Cert.Msg

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibMatmulAt.lean ====
/-
  A plain matrix product accumulated into the zero splat, read at an index, for operands of any float formats; and the zero
  offsets of a rank-2 rectangle as a constant function.

  For a rank-2 contraction [a, K] · [K, b] → [a, b] (the left operand's axis 1 against the right operand's axis 0, no batch
  axis), the accumulate-into-zero matrix product is, at the result index (p, q), the sum over k < K of
  lhs (p, k) · rhs (k, q). At the ideal instance a float of every format is an extended real, so the statement does not
  depend on the operands' formats: it is the f32 statement with the two formats left as parameters. The four coordinate
  facts about a given dimension record (hl0, hl1, hr0, hr1) are taken as hypotheses: for a literal record each is a
  computation.
-/
import proofs.«142475_j64630667870278_2_alg».proof.Proof.LibPlainDot

noncomputable section

namespace Cert.Lib.MatmulAt

open Idealize.ShloMosaic Idealize.ShloMosaic.ValueIdx

/-- The offset vector (0, 0) of a rank-2 rectangle is the constant function 0: the form in which the lemmas about a
    load or a store through a whole buffer at zero offsets take the offsets. -/
theorem hz : (![0, 0] : Fin 2 → Nat) = fun _ => 0 := funext fun a => by fin_cases a <;> rfl

/-- The matrix product of an [a, K] operand of format φ₁ with a [K, b] operand of format φ₂, accumulated into the zero
    splat, is at (p, q) the sum over k < K of lhs (p, k) · rhs (k, q) — for any dimension record D that contracts the
    left operand's axis 1 against the right operand's axis 0 (hr, hs: one contracted axis, of extent K; hl0 … hr1: at
    the result index i and the contraction index k the record names the operand indices (i 0, k) and (k, i 1)). -/
theorem matmul_zero_apply {a K b : Nat} {φ₁ φ₂ : FTy}
    (D : DotDims (⟨2, ![a, K]⟩ : Shape) (⟨2, ![K, b]⟩ : Shape) (⟨2, ![a, b]⟩ : Shape))
    (hr : D.contr.rank = 1) (hs : D.contr.size ⟨0, by omega⟩ = K)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (prec : Option ContractPrecision) (lhs : FVec Ideal (⟨2, ![a, K]⟩ : Shape) φ₁) (rhs : FVec Ideal (⟨2, ![K, b]⟩ : Shape) φ₂)
    (p : Fin a) (q : Fin b) :
    matmul D prec lhs rhs (constant (F := Ideal) (⟨2, ![a, b]⟩ : Shape) .f32 0x00000000#32) (ix2 p q)
      = ∑ k : Fin K, lhs (ix2 p k) * rhs (ix2 k q) :=
  (Ideal.matmul_constant_zero_apply D prec lhs rhs (ix2 p q)).trans
    (Cert.Lib.PlainDot.sum_contr D hr hs hl0 hl1 hr0 hr1 lhs rhs p q)

end Cert.Lib.MatmulAt

end
-- ==== Proof.KerPay.lean ====
/-
  The kernel body's arithmetic at one entry of its output block.

  The body reads a block of 10000 edges: their gathered source and destination projections (10000 × 20 each), their own
  features (10000 × 64), the edge block of the weight matrix (64 × 20) and the bias row (1 × 20). Entry (p, q) of what it
  stores is

      max ( ((src(p, q) + dst(p, q)) + Σ_{k < 64} feat(p, k) · w(k, q)) + bias(0, q) , 0 )

  on the extended reals: the changes of float format are the identity there, the matrix product accumulated into the zero
  splat is the plain sum of products, the casts between equal shapes do nothing, and the bias row is repeated down the rows.
-/
import proofs.«142475_j64630667870278_2_alg».proof.Proof.Gen.KernelIdeal.Skeleton
import proofs.«142475_j64630667870278_2_alg».proof.Proof.LibMatmulAt
import Idealize.ShloMosaic.Lib.Pipeline.Value
import Idealize.ShloMosaic.Lib.ValueLayout
import Idealize.ShloMosaic.PureOps.Ideal.Laws

noncomputable section

namespace Cert.Msg.KerPay

open Idealize.ShloMosaic Idealize.ShloMosaic.ValueIdx Cert.KernelIdeal Cert.KernelIdeal.Gen

/-- The four coordinate facts of the body's contraction: at the result index i and the contraction index q the left
    operand is read at (i 0, q) and the right operand at (q, i 1). -/
theorem lhs0 (i : S10000x20.Idx) (q : dot_S10000x64_S64x20_S10000x20_1_0_0_1_n_n.contr.Idx) :
    (dot_S10000x64_S64x20_S10000x20_1_0_0_1_n_n.lhsIdx i q 0).val = (i 0).val := by
  unfold DotDims.lhsIdx
  rw [dif_neg (show ¬(0 : Fin S10000x64.rank) ∈ dot_S10000x64_S64x20_S10000x20_1_0_0_1_n_n.lhsBatch by decide),
    dif_pos (show (0 : Fin S10000x64.rank) ∈ dot_S10000x64_S64x20_S10000x20_1_0_0_1_n_n.lhsNonContracting by decide)]
  rfl
theorem lhs1 (i : S10000x20.Idx) (q : dot_S10000x64_S64x20_S10000x20_1_0_0_1_n_n.contr.Idx) :
    (dot_S10000x64_S64x20_S10000x20_1_0_0_1_n_n.lhsIdx i q 1).val = (q ⟨0, by decide⟩).val :=
  dot_S10000x64_S64x20_S10000x20_1_0_0_1_n_n.lhsIdx_val_of_single rfl i q
theorem rhs0 (i : S10000x20.Idx) (q : dot_S10000x64_S64x20_S10000x20_1_0_0_1_n_n.contr.Idx) :
    (dot_S10000x64_S64x20_S10000x20_1_0_0_1_n_n.rhsIdx i q 0).val = (q ⟨0, by decide⟩).val :=
  dot_S10000x64_S64x20_S10000x20_1_0_0_1_n_n.rhsIdx_val_of_single rfl i q
theorem rhs1 (i : S10000x20.Idx) (q : dot_S10000x64_S64x20_S10000x20_1_0_0_1_n_n.contr.Idx) :
    (dot_S10000x64_S64x20_S10000x20_1_0_0_1_n_n.rhsIdx i q 1).val = (i 1).val := by
  unfold DotDims.rhsIdx
  rw [dif_neg (show ¬(1 : Fin S64x20.rank) ∈ dot_S10000x64_S64x20_S10000x20_1_0_0_1_n_n.rhsBatch by decide),
    dif_pos (show (1 : Fin S64x20.rank) ∈ dot_S10000x64_S64x20_S10000x20_1_0_0_1_n_n.rhsNonContracting by decide)]
  rfl

/-- The body's matrix product at (p, q): the sum over the 64 features. -/
theorem mm_apply (lhs : FVec Ideal S10000x64 .bf16) (rhs : FVec Ideal S64x20 .bf16) (p : Fin 10000) (q : Fin 20) :
    matmul dot_S10000x64_S64x20_S10000x20_1_0_0_1_n_n none lhs rhs (constant (F := Ideal) S10000x20 .f32 0x00000000#32) (ix2 p q)
      = ∑ k : Fin 64, lhs (ix2 p k) * rhs (ix2 k q) :=
  Cert.Lib.MatmulAt.matmul_zero_apply dot_S10000x64_S64x20_S10000x20_1_0_0_1_n_n rfl rfl lhs0 lhs1 rhs0 rhs1 none lhs rhs p q

/-- THE STORED ENTRY (p, q) of the body's output block. -/
theorem pay_apply (v0 : Vec Ideal S10000x64 .f32) (v2 : Vec Ideal S64x20 .bf16) (v5 v8 : Vec Ideal S10000x20 .bf16)
    (v13 : Vec Ideal S1x20 .f32) (p : Fin 10000) (q : Fin 20) :
    k0_pay1 (F := Ideal) v0 v2 v5 v8 v13 (ix2 p q)
      = max (((v5 (ix2 p q) + v8 (ix2 p q)) + ∑ k : Fin 64, v0 (ix2 p k) * v2 (ix2 k q)) + v13 (ix2 (0 : Fin 1) q)) 0 := by
  unfold k0_pay1
  show FloatOps.maximumf (FloatOps.addf (FloatOps.addf (FloatOps.addf _ _) (matmul _ none _ _ _ (ix2 p q))) (broadcastTo S10000x20 _ _ (ix2 p q))) _ = _
  rw [mm_apply, broadcastTo_1b_ab_apply, shapeCast_self, shapeCast_self, shapeCast_self, shapeCast_self]
  simp only [Ideal.maximumf_def, Ideal.addf_def]
  refine congrArg₂ max ?_ ?_
  · rfl
  · exact Ideal.ofBits_zero_f32

end Cert.Msg.KerPay

end
-- ==== Proof.KerFinal.lean ====
/-
  From the kernel's blocks to its whole output array.

  The region runs over 80 grid points; point t reads rows 10000·t … 10000·t + 9999 of the two gathered projection arrays and
  of the edge features, the whole edge block of the weights and the whole bias row, and writes back rows
  10000·t … 10000·t + 9999 of the output. So entry (p, q) of what point t writes back is the body's arithmetic at
  edge e = 10000·t + p and channel q, and — once the arrays the region reads are known index by index (`Reads`) — that is
  the message of edge e in channel q. The 80 blocks tile the 800000 rows (row r lies in block r / 10000), so the output
  array ends holding the message array.
-/
import proofs.«142475_j64630667870278_2_alg».proof.Proof.Gen.KernelIdeal.Frame
import proofs.«142475_j64630667870278_2_alg».proof.Proof.Gen.ReferenceIdeal.Read
import proofs.«142475_j64630667870278_2_alg».proof.Proof.MsgSpec
import proofs.«142475_j64630667870278_2_alg».proof.Proof.KerPay
import Idealize.ShloMosaic.Lib.Pipeline.Value

set_option maxRecDepth 16384

noncomputable section

namespace Cert.Msg.KerFinal

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (c : Dev nD)

/-- The source and destination columns of start-index words, as the reference's stages of the index argument. -/
abbrev cs : Cert.Msg.SCol.Idx → BitVec 32 := Cert.ReferenceIdeal.Read.val_main_v9 (F := Ideal) (m ((c : Thread nD τ).loc main_arg0))
abbrev cd : Cert.Msg.SCol.Idx → BitVec 32 := Cert.ReferenceIdeal.Read.val_main_v16 (F := Ideal) (m ((c : Thread nD τ).loc main_arg0))
abbrev A1 : S50000x64.Idx → EReal := m ((c : Thread nD τ).loc main_arg1)
abbrev A2 : S800000x64.Idx → EReal := m ((c : Thread nD τ).loc main_arg2)
abbrev A4 : S192x20.Idx → EReal := m ((c : Thread nD τ).loc main_arg4)
abbrev A5 : S20.Idx → EReal := m ((c : Thread nD τ).loc main_arg5)

/-- The message array of the kernel's arguments. -/
abbrev spec : S800000x20.Idx → EReal := Cert.Msg.msg (cs m c) (cd m c) (A1 m c) (A2 m c) (A4 m c) (A5 m c)

/-- What the arrays the region reads hold, index by index: the gathered source and destination projections, the edge
    block of the weights, the bias row. -/
structure Reads : Prop where
  src : ∀ (e : Fin 800000) (j : Fin 20), (V m c main_v22 : S800000x20.Idx → EReal) (ix2 e j)
    = ∑ k : Fin 64, A1 m c (ix2 (Cert.Msg.node (cs m c) e) k) * A4 m c (ix2 (Cert.Msg.wrow 0 k) j)
  dst : ∀ (e : Fin 800000) (j : Fin 20), (V m c main_v29 : S800000x20.Idx → EReal) (ix2 e j)
    = ∑ k : Fin 64, A1 m c (ix2 (Cert.Msg.node (cd m c) e) k) * A4 m c (ix2 (Cert.Msg.wrow 1 k) j)
  wedge : ∀ (k : Fin 64) (j : Fin 20), (V m c main_v9 : S64x20.Idx → EReal) (ix2 k j) = A4 m c (ix2 (Cert.Msg.wrow 2 k) j)
  bias : ∀ (j : Fin 20), (V m c main_v10 : S1x20.Idx → EReal) (ix2 (0 : Fin 1) j) = A5 m c (ix1 j)

theorem hz : (![0, 0] : Fin 2 → Nat) = fun _ => 0 := funext fun a => by fin_cases a <;> rfl

/-- The printed index maps over the grid: the three edge-indexed inputs and the output move one block of rows per point,
    the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 80 := by have h := t.isLt; have hN : cfg0.N = 80 := N_0; omega

/-- Edge 10000·t + p: row p of point t's block. -/
def edgeOf (t : Fin cfg0.N) (p : Fin 10000) : Fin 800000 := ⟨t.val * 10000 + p.val, by have := t_lt t; have := p.isLt; omega⟩

/-- Each input block, read where the block sits in its array. -/
theorem blk0 (t : Fin cfg0.N) (p : Fin 10000) (q : Fin 20) :
    (iblk m c 0 t : S10000x20.Idx → EReal) (ix2 p q) = (V m c main_v22 : S800000x20.Idx → EReal) (ix2 (edgeOf t p) q) := by
  show (V m c main_v22 : S800000x20.Idx → EReal) (((cfg0.win 0).blk t).view.emb (ix2 p q)) = _
  refine congrArg _ (funext fun a => Fin.ext ?_)
  obtain ⟨e0, e1, -⟩ := idx_facts t
  match a with
  | ⟨0, _⟩ => show win0_0.index t (0 : Fin 2) * 10000 + 1 * p.val = t.val * 10000 + p.val; omega
  | ⟨1, _⟩ => show win0_0.index t (1 : Fin 2) * 20 + 1 * q.val = q.val; omega

theorem blk1 (t : Fin cfg0.N) (p : Fin 10000) (q : Fin 20) :
    (iblk m c 1 t : S10000x20.Idx → EReal) (ix2 p q) = (V m c main_v29 : S800000x20.Idx → EReal) (ix2 (edgeOf t p) q) := by
  show (V m c main_v29 : S800000x20.Idx → EReal) (((cfg0.win 1).blk t).view.emb (ix2 p q)) = _
  refine congrArg _ (funext fun a => Fin.ext ?_)
  obtain ⟨-, -, e0, e1, -⟩ := idx_facts t
  match a with
  | ⟨0, _⟩ => show win0_1.index t (0 : Fin 2) * 10000 + 1 * p.val = t.val * 10000 + p.val; omega
  | ⟨1, _⟩ => show win0_1.index t (1 : Fin 2) * 20 + 1 * q.val = q.val; omega

theorem blk2 (t : Fin cfg0.N) (p : Fin 10000) (k : Fin 64) :
    (iblk m c 2 t : S10000x64.Idx → EReal) (ix2 p k) = A2 m c (ix2 (edgeOf t p) k) := by
  rw [A2, ← V_main_arg2 m c]
  show (V m c main_arg2 : S800000x64.Idx → EReal) (((cfg0.win 2).blk t).view.emb (ix2 p k)) = _
  refine congrArg _ (funext fun a => Fin.ext ?_)
  obtain ⟨-, -, -, -, e0, e1, -⟩ := idx_facts t
  match a with
  | ⟨0, _⟩ => show win0_2.index t (0 : Fin 2) * 10000 + 1 * p.val = t.val * 10000 + p.val; omega
  | ⟨1, _⟩ => show win0_2.index t (1 : Fin 2) * 64 + 1 * k.val = k.val; omega

theorem blk3 (t : Fin cfg0.N) (k : Fin 64) (q : Fin 20) :
    (iblk m c 3 t : S64x20.Idx → EReal) (ix2 k q) = (V m c main_v9 : S64x20.Idx → EReal) (ix2 k q) := by
  show (V m c main_v9 : S64x20.Idx → EReal) (((cfg0.win 3).blk t).view.emb (ix2 k q)) = _
  refine congrArg _ (funext fun a => Fin.ext ?_)
  obtain ⟨-, -, -, -, -, -, e0, e1, -⟩ := idx_facts t
  match a with
  | ⟨0, _⟩ => show win0_3.index t (0 : Fin 2) * 64 + 1 * k.val = k.val; omega
  | ⟨1, _⟩ => show win0_3.index t (1 : Fin 2) * 20 + 1 * q.val = q.val; omega

theorem blk4 (t : Fin cfg0.N) (q : Fin 20) :
    (iblk m c 4 t : S1x20.Idx → EReal) (ix2 (0 : Fin 1) q) = (V m c main_v10 : S1x20.Idx → EReal) (ix2 (0 : Fin 1) q) := by
  show (V m c main_v10 : S1x20.Idx → EReal) (((cfg0.win 4).blk t).view.emb (ix2 (0 : Fin 1) q)) = _
  refine congrArg _ (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 20 + 1 * q.val = q.val; omega

/-- Where entry (p, q) of the output's block at point t sits in the output array. -/
theorem emb5 (t : Fin cfg0.N) (p : Fin 10000) (q : Fin 20) :
    ((cfg0.win 5).blk t).view.emb (ix2 p q) = (ix2 (edgeOf t p) q : S800000x20.Idx) := by
  refine funext fun a => Fin.ext ?_
  obtain ⟨-, -, -, -, -, -, -, -, -, -, e0, e1⟩ := idx_facts t
  match a with
  | ⟨0, _⟩ => show win0_5.index t (0 : Fin 2) * 10000 + 1 * p.val = t.val * 10000 + p.val; omega
  | ⟨1, _⟩ => show win0_5.index t (1 : Fin 2) * 20 + 1 * q.val = q.val; omega

/-- WHAT POINT t WRITES BACK is block t of the message array. -/
theorem flushed_eq (H : Reads m c) (t : Fin cfg0.N) :
    (dats m 0 c).flushed 5 t = ((cfg0.win 5).blk t).view.read (Elt Ideal) (spec m c) := by
  show (cfg0.win 5).cut (grid0.coords t) ((dats m 0 c).after 5 t) = _
  rw [after0_5]
  unfold out0_5
  rw [View.canon_unit_zero hz]
  simp only [View.ld_unit_zero (S := S10000x64) hz, View.ld_unit_zero (S := S64x20) hz,
    View.ld_unit_zero (S := S10000x20) hz, View.ld_unit_zero (S := S1x20) hz]
  funext y
  obtain ⟨p, q, rfl⟩ : ∃ (p : Fin 10000) (q : Fin 20), y = ix2 p q := ⟨y 0, y 1, eq_ix2 y⟩
  show k0_pay1 (F := Ideal) (iblk m c 2 t) (iblk m c 3 t) (iblk m c 0 t) (iblk m c 1 t) (iblk m c 4 t) (ix2 p q)
    = spec m c (((cfg0.win 5).blk t).view.emb (ix2 p q))
  rw [emb5]
  refine (Cert.Msg.KerPay.pay_apply (iblk m c 2 t) (iblk m c 3 t) (iblk m c 0 t) (iblk m c 1 t) (iblk m c 4 t) p q).trans ?_
  rw [blk0, blk1, blk4, H.src, H.dst, H.bias]
  simp only [blk2, blk3, H.wedge]
  rfl

/-- An index of the output array is in point t's block iff each coordinate is in the block's range on its axis. -/
theorem mem_blk5 (t : Fin cfg0.N) (i : S800000x20.Idx) :
    i ∈ ((cfg0.win 5).blk t).view.set ↔ ∀ a : Fin 2, win0_5.index t a * S10000x20.size a ≤ (i a).val
      ∧ (i a).val < win0_5.index t a * S10000x20.size a + S10000x20.size a := by
  show i ∈ ((View.whole main_v30).slice (win0_5.rect t)).set ↔ _
  rw [View.set_slice_whole, Rect.mem_set_unit]
  exact Iff.rfl

/-- Every row of the output lies in some point's block: row r in block r / 10000. -/
theorem cover (i : S800000x20.Idx) :
    ∃ t : Fin cfg0.N, (cfg0.win 5).flush t = true ∧ i ∈ ((cfg0.win 5).blk t).view.set := by
  have hi0 : (i 0).val < 800000 := (i 0).isLt
  have hi1 : (i 1).val < 20 := (i 1).isLt
  have hN : cfg0.N = 80 := N_0
  refine ⟨⟨(i 0).val / 10000, by omega⟩, flush0_5 _, ?_⟩
  rw [mem_blk5]
  obtain ⟨-, -, -, -, -, -, -, -, -, -, e0, e1⟩ := idx_facts ⟨(i 0).val / 10000, by omega⟩
  intro a
  match a with
  | ⟨0, _⟩ =>
    show win0_5.index _ (0 : Fin 2) * 10000 ≤ (i 0).val ∧ (i 0).val < win0_5.index _ (0 : Fin 2) * 10000 + 10000
    rw [e0]; show (i 0).val / 10000 * 10000 ≤ (i 0).val ∧ (i 0).val < (i 0).val / 10000 * 10000 + 10000; omega
  | ⟨1, _⟩ =>
    show win0_5.index _ (1 : Fin 2) * 20 ≤ (i 1).val ∧ (i 1).val < win0_5.index _ (1 : Fin 2) * 20 + 20
    rw [e1]; omega

/-- THE OUTPUT ARRAY after the run is the message array. -/
theorem final (H : Reads m c) : (dats m 0 c).arrAt 5 cfg0.N = spec m c :=
  (dats m 0 c).arrAt_eq_of_cover 5 (spec m c) (fun t _ => flushed_eq m c H t) (cover)

end Cert.Msg.KerFinal

end
-- ==== Proof.KerHost.lean ====
/-
  What the kernel program's host operations leave in the arrays its region reads, index by index, over extended reals.

  Before the region the host slices the 192 × 20 weight matrix W into its three blocks of 64 rows, multiplies the
  50000 × 64 node-feature table x by the first block and by the second (each product a 50000 × 20 table), normalises
  the source and destination start-index words of every edge (a negative word gains 50000) and gathers, per edge, the
  20-wide row of the first product at the source node and of the second product at the destination node. The format
  changes in between are the identity on extended reals. So, for an edge e and a channel j,

      gathered-at-source (e, j)      = Σ_k x (src e, k) · W (k, j),
      gathered-at-destination (e, j) = Σ_k x (dst e, k) · W (64 + k, j),

  over k < 64, where the node a word names is the word read signed and clamped into [0, 49999]; the third block read at
  (k, j) is W (128 + k, j); the bias reshaped to one row read at (0, j) is b (j); and the destination words are the
  second row of the edge-index array, flattened. The start-index columns are the same chains of operations on the same
  argument as the reference program's, so they are stated as that program's stages.
-/
import proofs.«142475_j64630667870278_2_alg».proof.Proof.Gen.KernelIdeal.Frame
import proofs.«142475_j64630667870278_2_alg».proof.Proof.Gen.ReferenceIdeal.Read
import proofs.«142475_j64630667870278_2_alg».proof.Proof.MsgSpec
import proofs.«142475_j64630667870278_2_alg».proof.Proof.LibPlainDot
import Idealize.ShloMosaic.Lib.StableHlo.Run

noncomputable section

namespace Cert.Msg.KerHost

open Idealize.ShloMosaic Idealize.ShloMosaic.TcCoe Idealize.ShloMosaic.ValueIdx Idealize.SL.Sem Cert.KernelIdeal Cert.KernelIdeal.Gen Cert.Lib.RowGather

/-- The product of two extended reals (the factors below are array entries whose types only unfold to extended reals). -/
local notation:70 a:70 " ⊙ " b:71 => @HMul.hMul EReal EReal EReal instHMul a b

variable (m : (ℓ : Loc nD τ sig) → Buf (Elt Ideal) ℓ) (c : Dev nD)

/-! ## The host operations read at an index, over arbitrary arrays -/

theorem dot_l0 (i : S50000x20.Idx) (q : dot_S50000x64_S64x20_S50000x20_1_0_0_1_n_n.contr.Idx) : (dot_S50000x64_S64x20_S50000x20_1_0_0_1_n_n.lhsIdx i q 0).val = (i 0).val := by
  unfold DotDims.lhsIdx
  rw [dif_neg (show ¬(0 : Fin S50000x64.rank) ∈ dot_S50000x64_S64x20_S50000x20_1_0_0_1_n_n.lhsBatch by decide), dif_pos (show (0 : Fin S50000x64.rank) ∈ dot_S50000x64_S64x20_S50000x20_1_0_0_1_n_n.lhsNonContracting by decide)]
  rfl
theorem dot_l1 (i : S50000x20.Idx) (q : dot_S50000x64_S64x20_S50000x20_1_0_0_1_n_n.contr.Idx) : (dot_S50000x64_S64x20_S50000x20_1_0_0_1_n_n.lhsIdx i q 1).val = (q ⟨0, by decide⟩).val :=
  dot_S50000x64_S64x20_S50000x20_1_0_0_1_n_n.lhsIdx_val_of_single rfl i q
theorem dot_r0 (i : S50000x20.Idx) (q : dot_S50000x64_S64x20_S50000x20_1_0_0_1_n_n.contr.Idx) : (dot_S50000x64_S64x20_S50000x20_1_0_0_1_n_n.rhsIdx i q 0).val = (q ⟨0, by decide⟩).val :=
  dot_S50000x64_S64x20_S50000x20_1_0_0_1_n_n.rhsIdx_val_of_single rfl i q
theorem dot_r1 (i : S50000x20.Idx) (q : dot_S50000x64_S64x20_S50000x20_1_0_0_1_n_n.contr.Idx) : (dot_S50000x64_S64x20_S50000x20_1_0_0_1_n_n.rhsIdx i q 1).val = (i 1).val := by
  unfold DotDims.rhsIdx
  rw [dif_neg (show ¬(1 : Fin S64x20.rank) ∈ dot_S50000x64_S64x20_S50000x20_1_0_0_1_n_n.rhsBatch by decide), dif_pos (show (1 : Fin S64x20.rank) ∈ dot_S50000x64_S64x20_S50000x20_1_0_0_1_n_n.rhsNonContracting by decide)]
  rfl

/-- A node-feature table times a 64 × 20 block of weights, both passed through format changes that are the identity on
    extended reals: entry (n, j) is the sum over k < 64 of x (n, k) · w (k, j). -/
theorem proj_apply (x : S50000x64.Idx → EReal) (w : S64x20.Idx → EReal) (n : Fin 50000) (j : Fin 20) :
    (truncf (F := Ideal) .bf16 (Host.dotGeneral dot_S50000x64_S64x20_S50000x20_1_0_0_1_n_n none
        (truncf (F := Ideal) .bf16 x bitsLt_bf16_f32) (truncf (F := Ideal) .bf16 w bitsLt_bf16_f32)) bitsLt_bf16_f32 : S50000x20.Idx → EReal) (ix2 n j)
      = ∑ k : Fin 64, x (ix2 n k) * w (ix2 k j) := by
  show Host.dotGeneral dot_S50000x64_S64x20_S50000x20_1_0_0_1_n_n none (truncf (F := Ideal) .bf16 x bitsLt_bf16_f32) (truncf (F := Ideal) .bf16 w bitsLt_bf16_f32) (ix2 n j) = _
  simp only [Host.dotGeneral]
  rw [Ideal.dotGeneral_apply]
  exact Cert.Lib.PlainDot.sum_contr (a := 50000) (K := 64) (b := 20) dot_S50000x64_S64x20_S50000x20_1_0_0_1_n_n rfl rfl dot_l0 dot_l1 dot_r0 dot_r1 x w n j

/-- Row k of the 64-row slice of the weight matrix that starts at row 64 · blk is row 64 · blk + k of the matrix. -/
theorem wslice0_apply (w : S192x20.Idx → EReal) (k : Fin 64) (j : Fin 20) :
    extractStridedSlice S64x20 ![0, 0] w slices_S192x20_S64x20_0_0 (ix2 k j) = w (ix2 (Cert.Msg.wrow 0 k) j) :=
  extractStridedSlice_apply ![0, 0] w slices_S192x20_S64x20_0_0 (ix2 k j) (ix2 (Cert.Msg.wrow 0 k) j) (fun a => match a with
    | ⟨0, _⟩ => by show 64 * 0 + k.val = 0 + k.val; omega
    | ⟨1, _⟩ => by show j.val = 0 + j.val; omega)
theorem wslice1_apply (w : S192x20.Idx → EReal) (k : Fin 64) (j : Fin 20) :
    extractStridedSlice S64x20 ![64, 0] w slices_S192x20_S64x20_64_0 (ix2 k j) = w (ix2 (Cert.Msg.wrow 1 k) j) :=
  extractStridedSlice_apply ![64, 0] w slices_S192x20_S64x20_64_0 (ix2 k j) (ix2 (Cert.Msg.wrow 1 k) j) (fun a => match a with
    | ⟨0, _⟩ => by show 64 * 1 + k.val = 64 + k.val; omega
    | ⟨1, _⟩ => by show j.val = 0 + j.val; omega)
theorem wslice2_apply (w : S192x20.Idx → EReal) (k : Fin 64) (j : Fin 20) :
    extractStridedSlice S64x20 ![128, 0] w slices_S192x20_S64x20_128_0 (ix2 k j) = w (ix2 (Cert.Msg.wrow 2 k) j) :=
  extractStridedSlice_apply ![128, 0] w slices_S192x20_S64x20_128_0 (ix2 k j) (ix2 (Cert.Msg.wrow 2 k) j) (fun a => match a with
    | ⟨0, _⟩ => by show 64 * 2 + k.val = 128 + k.val; omega
    | ⟨1, _⟩ => by show j.val = 0 + j.val; omega)

/-- The gather of 20-wide rows at a column of start-index words: entry (e, j) is the table at the row word e names
    (read signed, clamped into [0, 49999]) and column j. -/
theorem rows_apply (x : S50000x20.Idx → EReal) (idx : S800000x1.Idx → BitVec 32) (e : Fin 800000) (j : Fin 20) :
    Host.gather gather_S50000x20_S800000x1_S800000x20_1_0_n_n_0_1_120 x idx (ix2 e j)
      = x (ix2 (Cert.Msg.node idx e) j) := by
  have hd : gather_S50000x20_S800000x1_S800000x20_1_0_n_n_0_1_120
      = rowDims 50000 800000 20 gather_S50000x20_S800000x1_S800000x20_1_0_n_n_0_1_120.wf := rfl
  rw [hd]
  exact gather_rows_apply (by decide) _ x idx e j

/-! ## The arrays the region reads -/

/-- The rows gathered at the source nodes, as the host operations compute them from the arguments. -/
theorem read_v22 : (V m c main_v22 : S800000x20.Idx → EReal) =
    (Host.gather gather_S50000x20_S800000x1_S800000x20_1_0_n_n_0_1_120
      (truncf (F := Ideal) .bf16 (Host.dotGeneral dot_S50000x64_S64x20_S50000x20_1_0_0_1_n_n none
        (truncf (F := Ideal) .bf16 (m ((c : Thread nD τ).loc main_arg1) : S50000x64.Idx → EReal) bitsLt_bf16_f32)
        (truncf (F := Ideal) .bf16 (extractStridedSlice S64x20 ![0, 0] (m ((c : Thread nD τ).loc main_arg4) : S192x20.Idx → EReal) slices_S192x20_S64x20_0_0) bitsLt_bf16_f32)) bitsLt_bf16_f32 : S50000x20.Idx → EReal)
      (Cert.ReferenceIdeal.Read.val_main_v9 (F := Ideal) (m ((c : Thread nD τ).loc main_arg0))) : S800000x20.Idx → EReal) := by
  show StableHlo.after hostOps0 (fun b => m (c, b)) (Proc.devRef .tc main_v22) = _
  after_results_simp
  rfl

/-- The rows gathered at the destination nodes, as the host operations compute them from the arguments. -/
theorem read_v29 : (V m c main_v29 : S800000x20.Idx → EReal) =
    (Host.gather gather_S50000x20_S800000x1_S800000x20_1_0_n_n_0_1_120
      (truncf (F := Ideal) .bf16 (Host.dotGeneral dot_S50000x64_S64x20_S50000x20_1_0_0_1_n_n none
        (truncf (F := Ideal) .bf16 (m ((c : Thread nD τ).loc main_arg1) : S50000x64.Idx → EReal) bitsLt_bf16_f32)
        (truncf (F := Ideal) .bf16 (extractStridedSlice S64x20 ![64, 0] (m ((c : Thread nD τ).loc main_arg4) : S192x20.Idx → EReal) slices_S192x20_S64x20_64_0) bitsLt_bf16_f32)) bitsLt_bf16_f32 : S50000x20.Idx → EReal)
      (Cert.ReferenceIdeal.Read.val_main_v16 (F := Ideal) (m ((c : Thread nD τ).loc main_arg0))) : S800000x20.Idx → EReal) := by
  show StableHlo.after hostOps0 (fun b => m (c, b)) (Proc.devRef .tc main_v29) = _
  after_results_simp
  rfl

/-- Gathered at the source: Σ_k x (src e, k) · W (k, j). -/
theorem gsrc_apply (e : Fin 800000) (j : Fin 20) :
    @Eq EReal ((V m c main_v22 : S800000x20.Idx → EReal) (ix2 e j))
      (∑ k : Fin 64, (m ((c : Thread nD τ).loc main_arg1) : S50000x64.Idx → EReal)
            (ix2 (Cert.Msg.node (Cert.ReferenceIdeal.Read.val_main_v9 (F := Ideal) (m ((c : Thread nD τ).loc main_arg0))) e) k)
          ⊙ (m ((c : Thread nD τ).loc main_arg4) : S192x20.Idx → EReal) (ix2 (Cert.Msg.wrow 0 k) j)) := by
  rw [read_v22, rows_apply, proj_apply]
  exact Finset.sum_congr rfl fun k _ => congrArg _ (wslice0_apply _ k j)

/-- Gathered at the destination: Σ_k x (dst e, k) · W (64 + k, j). -/
theorem gdst_apply (e : Fin 800000) (j : Fin 20) :
    @Eq EReal ((V m c main_v29 : S800000x20.Idx → EReal) (ix2 e j))
      (∑ k : Fin 64, (m ((c : Thread nD τ).loc main_arg1) : S50000x64.Idx → EReal)
            (ix2 (Cert.Msg.node (Cert.ReferenceIdeal.Read.val_main_v16 (F := Ideal) (m ((c : Thread nD τ).loc main_arg0))) e) k)
          ⊙ (m ((c : Thread nD τ).loc main_arg4) : S192x20.Idx → EReal) (ix2 (Cert.Msg.wrow 1 k) j)) := by
  rw [read_v29, rows_apply, proj_apply]
  exact Finset.sum_congr rfl fun k _ => congrArg _ (wslice1_apply _ k j)

/-- The third row block of the weight matrix, as the host operations compute it. -/
theorem read_v9 : (V m c main_v9 : S64x20.Idx → EReal) = (truncf (F := Ideal) .bf16 (extractStridedSlice S64x20 ![128, 0] (m ((c : Thread nD τ).loc main_arg4) : S192x20.Idx → EReal) slices_S192x20_S64x20_128_0) bitsLt_bf16_f32 : S64x20.Idx → EReal) := by
  show StableHlo.after hostOps0 (fun b => m (c, b)) (Proc.devRef .tc main_v9) = _
  after_results

/-- The third block at (k, j): W (128 + k, j). -/
theorem wedge_apply (k : Fin 64) (j : Fin 20) :
    @Eq EReal ((V m c main_v9 : S64x20.Idx → EReal) (ix2 k j))
      ((m ((c : Thread nD τ).loc main_arg4) : S192x20.Idx → EReal) (ix2 (Cert.Msg.wrow 2 k) j)) := by
  rw [read_v9]
  exact wslice2_apply _ k j

/-- The bias as one row, as the host operations compute it. -/
theorem read_v10 : (V m c main_v10 : S1x20.Idx → EReal) = shapeCast _ (m ((c : Thread nD τ).loc main_arg5)) shapeCasts_S20_S1x20 := by
  show StableHlo.after hostOps0 (fun b => m (c, b)) (Proc.devRef .tc main_v10) = _
  after_results
  rfl

/-- The bias row at (0, j): b (j). -/
theorem bias_apply (j : Fin 20) :
    @Eq EReal ((V m c main_v10 : S1x20.Idx → EReal) (ix2 (0 : Fin 1) j))
      ((m ((c : Thread nD τ).loc main_arg5) : S20.Idx → EReal) (ix1 j)) := by
  rw [read_v10]
  exact shapeCast_apply _ shapeCasts_S20_S1x20 (ix2 (0 : Fin 1) j) (ix1 j)
    (by rewrite [Shape.rowMajor_val_two, Shape.rowMajor_val_one]; show j.val = 0 * 20 + j.val; omega)

/-- The destination words: the same slice and flattening of the edge-index array as the reference program's. -/
theorem dst_eq : (V m c main_v3 : S800000.Idx → BitVec 32) = Cert.ReferenceIdeal.Read.val_main_v3 (F := Ideal) (m ((c : Thread nD τ).loc main_arg0)) := by
  show StableHlo.after hostOps0 (fun b => m (c, b)) (Proc.devRef .tc main_v3) = _
  after_results
  rfl

end Cert.Msg.KerHost

end
-- ==== Proof.KerTail.lean ====
/-
  The kernel program's result is the tail of the region's output array.

  After the region, the program's remaining operations read the region's output array (the messages), the raw destination
  words computed before the region, and nine argument arrays; every other buffer is as the region found it. Read back,
  those operations are the one function `Cert.Msg.tail` of these arrays: first in the kernel program's own spelling of the
  dimension records (`tailK`), which is the same function because the records have the same fields.
  The three rectifiers are calls of a function of the program; a call stores its values through typed references to
  literal buffers, and a value stored or read through such a reference is the value itself (`toBuf_…`, `ofBuf_…`).
-/
import proofs.«142475_j64630667870278_2_alg».proof.Proof.Gen.KernelIdeal.Frame
import proofs.«142475_j64630667870278_2_alg».proof.Proof.Tail
import Idealize.ShloMosaic.Lib.StableHlo.Run
import Idealize.ShloMosaic.PureOps.Ideal

noncomputable section

namespace Cert.Msg.KerTail

open Idealize.ShloMosaic Idealize.ShloMosaic.TcCoe Idealize.SL.Sem Cert.KernelIdeal Cert.KernelIdeal.Gen Idealize.ShloMosaic.StableHlo

section
variable {F : FTy → Type} [FloatOps F]

/-- The operations after the region — two segment sums and four affine layers — in the kernel program's records. -/
def tailK (msg : (⟨S800000x20, .f32⟩ : BufTy).Contents (Elt F)) (dst : (⟨S800000, .i32⟩ : BufTy).Contents (Elt F))
    (x3 : (⟨S50000, .i32⟩ : BufTy).Contents (Elt F)) (x6 : (⟨S20x20, .f32⟩ : BufTy).Contents (Elt F))
    (x7 : (⟨S20, .f32⟩ : BufTy).Contents (Elt F)) (x8 : (⟨S20x10, .f32⟩ : BufTy).Contents (Elt F))
    (x9 : (⟨S10, .f32⟩ : BufTy).Contents (Elt F)) (x10 : (⟨S10x10, .f32⟩ : BufTy).Contents (Elt F))
    (x11 : (⟨S10, .f32⟩ : BufTy).Contents (Elt F)) (x12 : (⟨S10x1, .f32⟩ : BufTy).Contents (Elt F))
    (x13 : (⟨S1, .f32⟩ : BufTy).Contents (Elt F)) : (⟨S512x1, .f32⟩ : BufTy).Contents (Elt F) :=
  addf (Host.dotGeneral dot_S512x10_S10x1_S512x1_1_0_0_1_n_n none
    (maximumf (addf (Host.dotGeneral dot_S512x10_S10x10_S512x10_1_0_0_1_n_n none
      (Host.scatterAdd scatter_S512x10_S50000x1_S50000x10_1_0_0_1 (broadcastInDim S512x10 ![] bcast_S_S512x10 (constant (F := F) S_ .f32 0x00000000#32))
        (broadcastInDim S50000x1 ![0] bcast_S50000_S50000x1_0 x3)
        (maximumf (addf (Host.dotGeneral dot_S50000x20_S20x10_S50000x10_1_0_0_1_n_n none
          (maximumf (addf (Host.dotGeneral dot_S50000x20_S20x20_S50000x20_1_0_0_1_n_n none
            (Host.scatterAdd scatter_S50000x20_S800000x1_S800000x20_1_0_0_1 (broadcastInDim S50000x20 ![] bcast_S_S50000x20 (constant (F := F) S_ .f32 0x00000000#32))
              (broadcastInDim S800000x1 ![0] bcast_S800000_S800000x1_0 dst) msg) x6)
            (broadcastInDim S50000x20 ![0, 1] bcast_S1x20_S50000x20_0_1 (broadcastInDim S1x20 ![1] bcast_S20_S1x20_1 x7)))
            (broadcastInDim S50000x20 ![] bcast_S_S50000x20 (constant (F := F) S_ .f32 0x00000000#32))) x8)
          (broadcastInDim S50000x10 ![0, 1] bcast_S1x10_S50000x10_0_1 (broadcastInDim S1x10 ![1] bcast_S10_S1x10_1 x9)))
          (broadcastInDim S50000x10 ![] bcast_S_S50000x10 (constant (F := F) S_ .f32 0x00000000#32)))) x10)
      (broadcastInDim S512x10 ![0, 1] bcast_S1x10_S512x10_0_1 (broadcastInDim S1x10 ![1] bcast_S10_S1x10_1 x11)))
      (broadcastInDim S512x10 ![] bcast_S_S512x10 (constant (F := F) S_ .f32 0x00000000#32))) x12)
    (broadcastInDim S512x1 ![0, 1] bcast_S1x1_S512x1_0_1 (broadcastInDim S1x1 ![1] bcast_S1_S1x1_1 x13))

/-- It is the shared tail: the two programs' dimension records have the same fields. -/
theorem tailK_eq_tail (msg : (⟨S800000x20, .f32⟩ : BufTy).Contents (Elt F)) (dst : (⟨S800000, .i32⟩ : BufTy).Contents (Elt F))
    (x3 : (⟨S50000, .i32⟩ : BufTy).Contents (Elt F)) (x6 : (⟨S20x20, .f32⟩ : BufTy).Contents (Elt F))
    (x7 : (⟨S20, .f32⟩ : BufTy).Contents (Elt F)) (x8 : (⟨S20x10, .f32⟩ : BufTy).Contents (Elt F))
    (x9 : (⟨S10, .f32⟩ : BufTy).Contents (Elt F)) (x10 : (⟨S10x10, .f32⟩ : BufTy).Contents (Elt F))
    (x11 : (⟨S10, .f32⟩ : BufTy).Contents (Elt F)) (x12 : (⟨S10x1, .f32⟩ : BufTy).Contents (Elt F))
    (x13 : (⟨S1, .f32⟩ : BufTy).Contents (Elt F)) :
    tailK (F := F) msg dst x3 x6 x7 x8 x9 x10 x11 x12 x13 = Cert.Msg.tail (F := F) msg dst x3 x6 x7 x8 x9 x10 x11 x12 x13 := by
  unfold tailK Cert.Msg.tail
  rfl
end

/-! A value stored or read through a typed reference to a literal buffer is the value itself. -/
theorem toBuf_main_v37 (h1 : main_v37.ty = ⟨S50000x20, .f32⟩) (h2 : main_v37.space ≠ .host) (h3 : main_v37.isScoped = false) (v : (⟨S50000x20, .f32⟩ : BufTy).Contents (Elt Ideal)) :
    (TRef.of (T := ⟨S50000x20, .f32⟩) main_v37 h1 h2 h3).toBuf v = v := rfl
theorem ofBuf_main_v37 (h1 : main_v37.ty = ⟨S50000x20, .f32⟩) (h2 : main_v37.space ≠ .host) (h3 : main_v37.isScoped = false) (v : (⟨S50000x20, .f32⟩ : BufTy).Contents (Elt Ideal)) :
    (TRef.of (T := ⟨S50000x20, .f32⟩) main_v37 h1 h2 h3).ofBuf v = v := rfl
theorem toBuf_main_v38 (h1 : main_v38.ty = ⟨S50000x20, .f32⟩) (h2 : main_v38.space ≠ .host) (h3 : main_v38.isScoped = false) (v : (⟨S50000x20, .f32⟩ : BufTy).Contents (Elt Ideal)) :
    (TRef.of (T := ⟨S50000x20, .f32⟩) main_v38 h1 h2 h3).toBuf v = v := rfl
theorem ofBuf_main_v38 (h1 : main_v38.ty = ⟨S50000x20, .f32⟩) (h2 : main_v38.space ≠ .host) (h3 : main_v38.isScoped = false) (v : (⟨S50000x20, .f32⟩ : BufTy).Contents (Elt Ideal)) :
    (TRef.of (T := ⟨S50000x20, .f32⟩) main_v38 h1 h2 h3).ofBuf v = v := rfl
theorem toBuf_main_call0_v0 (h1 : main_call0_v0.ty = ⟨S50000x20, .f32⟩) (h2 : main_call0_v0.space ≠ .host) (h3 : main_call0_v0.isScoped = false) (v : (⟨S50000x20, .f32⟩ : BufTy).Contents (Elt Ideal)) :
    (TRef.of (T := ⟨S50000x20, .f32⟩) main_call0_v0 h1 h2 h3).toBuf v = v := rfl
theorem ofBuf_main_call0_v0 (h1 : main_call0_v0.ty = ⟨S50000x20, .f32⟩) (h2 : main_call0_v0.space ≠ .host) (h3 : main_call0_v0.isScoped = false) (v : (⟨S50000x20, .f32⟩ : BufTy).Contents (Elt Ideal)) :
    (TRef.of (T := ⟨S50000x20, .f32⟩) main_call0_v0 h1 h2 h3).ofBuf v = v := rfl
theorem toBuf_main_call0_cst (h1 : main_call0_cst.ty = ⟨S_, .f32⟩) (h2 : main_call0_cst.space ≠ .host) (h3 : main_call0_cst.isScoped = false) (v : (⟨S_, .f32⟩ : BufTy).Contents (Elt Ideal)) :
    (TRef.of (T := ⟨S_, .f32⟩) main_call0_cst h1 h2 h3).toBuf v = v := rfl
theorem ofBuf_main_call0_cst (h1 : main_call0_cst.ty = ⟨S_, .f32⟩) (h2 : main_call0_cst.space ≠ .host) (h3 : main_call0_cst.isScoped = false) (v : (⟨S_, .f32⟩ : BufTy).Contents (Elt Ideal)) :
    (TRef.of (T := ⟨S_, .f32⟩) main_call0_cst h1 h2 h3).ofBuf v = v := rfl
theorem toBuf_main_v42 (h1 : main_v42.ty = ⟨S50000x10, .f32⟩) (h2 : main_v42.space ≠ .host) (h3 : main_v42.isScoped = false) (v : (⟨S50000x10, .f32⟩ : BufTy).Contents (Elt Ideal)) :
    (TRef.of (T := ⟨S50000x10, .f32⟩) main_v42 h1 h2 h3).toBuf v = v := rfl
theorem ofBuf_main_v42 (h1 : main_v42.ty = ⟨S50000x10, .f32⟩) (h2 : main_v42.space ≠ .host) (h3 : main_v42.isScoped = false) (v : (⟨S50000x10, .f32⟩ : BufTy).Contents (Elt Ideal)) :
    (TRef.of (T := ⟨S50000x10, .f32⟩) main_v42 h1 h2 h3).ofBuf v = v := rfl
theorem toBuf_main_v43 (h1 : main_v43.ty = ⟨S50000x10, .f32⟩) (h2 : main_v43.space ≠ .host) (h3 : main_v43.isScoped = false) (v : (⟨S50000x10, .f32⟩ : BufTy).Contents (Elt Ideal)) :
    (TRef.of (T := ⟨S50000x10, .f32⟩) main_v43 h1 h2 h3).toBuf v = v := rfl
theorem ofBuf_main_v43 (h1 : main_v43.ty = ⟨S50000x10, .f32⟩) (h2 : main_v43.space ≠ .host) (h3 : main_v43.isScoped = false) (v : (⟨S50000x10, .f32⟩ : BufTy).Contents (Elt Ideal)) :
    (TRef.of (T := ⟨S50000x10, .f32⟩) main_v43 h1 h2 h3).ofBuf v = v := rfl
theorem toBuf_main_call1_v0 (h1 : main_call1_v0.ty = ⟨S50000x10, .f32⟩) (h2 : main_call1_v0.space ≠ .host) (h3 : main_call1_v0.isScoped = false) (v : (⟨S50000x10, .f32⟩ : BufTy).Contents (Elt Ideal)) :
    (TRef.of (T := ⟨S50000x10, .f32⟩) main_call1_v0 h1 h2 h3).toBuf v = v := rfl
theorem ofBuf_main_call1_v0 (h1 : main_call1_v0.ty = ⟨S50000x10, .f32⟩) (h2 : main_call1_v0.space ≠ .host) (h3 : main_call1_v0.isScoped = false) (v : (⟨S50000x10, .f32⟩ : BufTy).Contents (Elt Ideal)) :
    (TRef.of (T := ⟨S50000x10, .f32⟩) main_call1_v0 h1 h2 h3).ofBuf v = v := rfl
theorem toBuf_main_call1_cst (h1 : main_call1_cst.ty = ⟨S_, .f32⟩) (h2 : main_call1_cst.space ≠ .host) (h3 : main_call1_cst.isScoped = false) (v : (⟨S_, .f32⟩ : BufTy).Contents (Elt Ideal)) :
    (TRef.of (T := ⟨S_, .f32⟩) main_call1_cst h1 h2 h3).toBuf v = v := rfl
theorem ofBuf_main_call1_cst (h1 : main_call1_cst.ty = ⟨S_, .f32⟩) (h2 : main_call1_cst.space ≠ .host) (h3 : main_call1_cst.isScoped = false) (v : (⟨S_, .f32⟩ : BufTy).Contents (Elt Ideal)) :
    (TRef.of (T := ⟨S_, .f32⟩) main_call1_cst h1 h2 h3).ofBuf v = v := rfl
theorem toBuf_main_v50 (h1 : main_v50.ty = ⟨S512x10, .f32⟩) (h2 : main_v50.space ≠ .host) (h3 : main_v50.isScoped = false) (v : (⟨S512x10, .f32⟩ : BufTy).Contents (Elt Ideal)) :
    (TRef.of (T := ⟨S512x10, .f32⟩) main_v50 h1 h2 h3).toBuf v = v := rfl
theorem ofBuf_main_v50 (h1 : main_v50.ty = ⟨S512x10, .f32⟩) (h2 : main_v50.space ≠ .host) (h3 : main_v50.isScoped = false) (v : (⟨S512x10, .f32⟩ : BufTy).Contents (Elt Ideal)) :
    (TRef.of (T := ⟨S512x10, .f32⟩) main_v50 h1 h2 h3).ofBuf v = v := rfl
theorem toBuf_main_v51 (h1 : main_v51.ty = ⟨S512x10, .f32⟩) (h2 : main_v51.space ≠ .host) (h3 : main_v51.isScoped = false) (v : (⟨S512x10, .f32⟩ : BufTy).Contents (Elt Ideal)) :
    (TRef.of (T := ⟨S512x10, .f32⟩) main_v51 h1 h2 h3).toBuf v = v := rfl
theorem ofBuf_main_v51 (h1 : main_v51.ty = ⟨S512x10, .f32⟩) (h2 : main_v51.space ≠ .host) (h3 : main_v51.isScoped = false) (v : (⟨S512x10, .f32⟩ : BufTy).Contents (Elt Ideal)) :
    (TRef.of (T := ⟨S512x10, .f32⟩) main_v51 h1 h2 h3).ofBuf v = v := rfl
theorem toBuf_main_call2_v0 (h1 : main_call2_v0.ty = ⟨S512x10, .f32⟩) (h2 : main_call2_v0.space ≠ .host) (h3 : main_call2_v0.isScoped = false) (v : (⟨S512x10, .f32⟩ : BufTy).Contents (Elt Ideal)) :
    (TRef.of (T := ⟨S512x10, .f32⟩) main_call2_v0 h1 h2 h3).toBuf v = v := rfl
theorem ofBuf_main_call2_v0 (h1 : main_call2_v0.ty = ⟨S512x10, .f32⟩) (h2 : main_call2_v0.space ≠ .host) (h3 : main_call2_v0.isScoped = false) (v : (⟨S512x10, .f32⟩ : BufTy).Contents (Elt Ideal)) :
    (TRef.of (T := ⟨S512x10, .f32⟩) main_call2_v0 h1 h2 h3).ofBuf v = v := rfl
theorem toBuf_main_call2_cst (h1 : main_call2_cst.ty = ⟨S_, .f32⟩) (h2 : main_call2_cst.space ≠ .host) (h3 : main_call2_cst.isScoped = false) (v : (⟨S_, .f32⟩ : BufTy).Contents (Elt Ideal)) :
    (TRef.of (T := ⟨S_, .f32⟩) main_call2_cst h1 h2 h3).toBuf v = v := rfl
theorem ofBuf_main_call2_cst (h1 : main_call2_cst.ty = ⟨S_, .f32⟩) (h2 : main_call2_cst.space ≠ .host) (h3 : main_call2_cst.isScoped = false) (v : (⟨S_, .f32⟩ : BufTy).Contents (Elt Ideal)) :
    (TRef.of (T := ⟨S_, .f32⟩) main_call2_cst h1 h2 h3).ofBuf v = v := rfl

set_option backward.isDefEq.respectTransparency.types false in
set_option maxRecDepth 16384 in
/-- The operations after the region, run from ANY buffer contents `W`, leave `tailK` of what `W` holds in the buffers they
    read. -/
theorem tailK_of_val (W : Valuation τ sig (Elt Ideal)) :
    StableHlo.after [hostOps1, hostOps1_1, hostOps1_2, hostOps1_3, hostOps1_4, hostOps1_5, hostOps1_6].flatten W (Proc.devRef .tc main_v55)
      = tailK (F := Ideal) (W (Proc.devRef .tc main_v30)) (W (Proc.devRef .tc main_v3))
          (W (Proc.devRef .tc main_arg3)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  simp only [hostOps1, hostOps1_1, hostOps1_2, hostOps1_3, hostOps1_4, hostOps1_5, hostOps1_6, List.flatten_cons, List.flatten_nil, List.append_nil, List.cons_append, List.nil_append]
  after_results_simp
  repeat (first | rw [toBuf_main_v51] | rw [ofBuf_main_v50] | rw [toBuf_main_v43] | rw [ofBuf_main_v42] | rw [toBuf_main_v38] | rw [ofBuf_main_v37] | rw [ofBuf_main_call0_v0] | rw [toBuf_main_call0_v0] | rw [ofBuf_main_call0_cst] | rw [toBuf_main_call0_cst] | rw [ofBuf_main_call1_v0] | rw [toBuf_main_call1_v0] | rw [ofBuf_main_call1_cst] | rw [toBuf_main_call1_cst] | rw [ofBuf_main_call2_v0] | rw [toBuf_main_call2_v0] | rw [ofBuf_main_call2_cst] | rw [toBuf_main_call2_cst])
  · unfold tailK
    rfl
  all_goals first | rfl | decide

variable (m : (ℓ : Loc nD τ sig) → Buf (Elt Ideal) ℓ) (c : Dev nD)

/-- The buffers' contents when the region is left: its arrays as the run leaves them, every other buffer as it was. -/
abbrev exitVal : Valuation τ sig (Elt Ideal) :=
  Pipeline.withArrays (cfgs 0).spec c (V0 m c) (fun w => (dats m 0 c).arrAt w (cfgs 0).N)

set_option backward.isDefEq.respectTransparency.types false in
theorem exit_msg : exitVal m c (Proc.devRef .tc main_v30) = (dats m 0 c).arrAt 5 cfg0.N :=
  Pipeline.withArrays_arr spec0 launch0.win.arr_inj c _ _ 5

theorem exit_dst : exitVal m c (Proc.devRef .tc main_v3) = V m c main_v3 :=
  Pipeline.withArrays_of_ne spec0 c _ _ main_v3 (by decide)
theorem exit_arg3 : exitVal m c (Proc.devRef .tc main_arg3) = m ((c : Thread nD τ).loc main_arg3) :=
  (Pipeline.withArrays_of_ne spec0 c _ _ main_arg3 (by decide)).trans (V_main_arg3 m c)
theorem exit_arg6 : exitVal m c (Proc.devRef .tc main_arg6) = m ((c : Thread nD τ).loc main_arg6) :=
  (Pipeline.withArrays_of_ne spec0 c _ _ main_arg6 (by decide)).trans (V_main_arg6 m c)
theorem exit_arg7 : exitVal m c (Proc.devRef .tc main_arg7) = m ((c : Thread nD τ).loc main_arg7) :=
  (Pipeline.withArrays_of_ne spec0 c _ _ main_arg7 (by decide)).trans (V_main_arg7 m c)
theorem exit_arg8 : exitVal m c (Proc.devRef .tc main_arg8) = m ((c : Thread nD τ).loc main_arg8) :=
  (Pipeline.withArrays_of_ne spec0 c _ _ main_arg8 (by decide)).trans (V_main_arg8 m c)
theorem exit_arg9 : exitVal m c (Proc.devRef .tc main_arg9) = m ((c : Thread nD τ).loc main_arg9) :=
  (Pipeline.withArrays_of_ne spec0 c _ _ main_arg9 (by decide)).trans (V_main_arg9 m c)
theorem exit_arg10 : exitVal m c (Proc.devRef .tc main_arg10) = m ((c : Thread nD τ).loc main_arg10) :=
  (Pipeline.withArrays_of_ne spec0 c _ _ main_arg10 (by decide)).trans (V_main_arg10 m c)
theorem exit_arg11 : exitVal m c (Proc.devRef .tc main_arg11) = m ((c : Thread nD τ).loc main_arg11) :=
  (Pipeline.withArrays_of_ne spec0 c _ _ main_arg11 (by decide)).trans (V_main_arg11 m c)
theorem exit_arg12 : exitVal m c (Proc.devRef .tc main_arg12) = m ((c : Thread nD τ).loc main_arg12) :=
  (Pipeline.withArrays_of_ne spec0 c _ _ main_arg12 (by decide)).trans (V_main_arg12 m c)
theorem exit_arg13 : exitVal m c (Proc.devRef .tc main_arg13) = m ((c : Thread nD τ).loc main_arg13) :=
  (Pipeline.withArrays_of_ne spec0 c _ _ main_arg13 (by decide)).trans (V_main_arg13 m c)

set_option backward.isDefEq.respectTransparency.types false in
set_option maxRecDepth 16384 in
/-- THE RESULT: the tail of the message array the region leaves and of the destination words. -/
theorem result_eq :
    Pipeline.afterTail₀ cfgs (dats m) 0 (V0 m) [hostOps1, hostOps1_1, hostOps1_2, hostOps1_3, hostOps1_4, hostOps1_5, hostOps1_6] c main_v55
      = Cert.Msg.tail (F := Ideal) ((dats m 0 c).arrAt 5 cfg0.N) (V m c main_v3)
          (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold Pipeline.afterTail₀
  refine (tailK_of_val (exitVal m c)).trans ?_
  rw [exit_msg m c, exit_dst m c, exit_arg3 m c, exit_arg6 m c, exit_arg7 m c, exit_arg8 m c, exit_arg9 m c, exit_arg10 m c, exit_arg11 m c, exit_arg12 m c, exit_arg13 m c]
  exact tailK_eq_tail _ _ _ _ _ _ _ _ _ _ _

end Cert.Msg.KerTail

end
-- ==== Proof.RefMsg.lean ====
/-
  The reference's message array is the message array of the specification.

  The reference reads the two rows of the edge-index array as columns of start-index words, gathers the source node's and
  the destination node's 64 features for every edge, joins them with the edge's own 64 features into 192 columns,
  multiplies by the 192 × 20 weight matrix, adds the bias row and rectifies. Read at an edge e and a channel j: the
  gather reads the node table at the row the start-index word names (clamped into the table), the join's column
  64 · blk + k is column k of piece blk, so the sum over the 192 columns splits into the three sums over 64 of the
  specification, in its order; the bias is b(j) and the rectifier's other operand is the zero word, which denotes 0.
-/
import proofs.«142475_j64630667870278_2_alg».proof.Proof.Gen.ReferenceIdeal.Read
import proofs.«142475_j64630667870278_2_alg».proof.Proof.MsgSpec
import proofs.«142475_j64630667870278_2_alg».proof.Proof.LibPlainDot

noncomputable section

namespace Cert.Msg.Ref

open Idealize.ShloMosaic Idealize.ShloMosaic.ValueIdx Cert.ReferenceIdeal Cert.ReferenceIdeal.Read Cert.Lib.RowGather

/-- The reference's gather record is the row gather from a 50000 × 64 table at 800000 start indices. -/
theorem gather_dims_eq :
    gather_S50000x64_S800000x1_S800000x64_1_0_n_n_0_1_164 = rowDims 50000 800000 64 gather_S50000x64_S800000x1_S800000x64_1_0_n_n_0_1_164.wf := rfl

/-- The gathered source features of edge e: the node table at the row the source word names. -/
theorem gather10_apply (x0 : (⟨S2x800000, .i32⟩ : BufTy).Contents (Elt Ideal)) (x1 : (⟨S50000x64, .f32⟩ : BufTy).Contents (Elt Ideal)) (e : Fin 800000) (k : Fin 64) :
    val_main_v10 (F := Ideal) x0 x1 (ix2 e k) = x1 (ix2 (node (val_main_v9 (F := Ideal) x0) e) k) := by
  unfold val_main_v10
  rw [gather_dims_eq]
  exact gather_rows_apply (by decide) _ x1 (val_main_v9 (F := Ideal) x0) e k

/-- The gathered destination features of edge e: the node table at the row the destination word names. -/
theorem gather17_apply (x0 : (⟨S2x800000, .i32⟩ : BufTy).Contents (Elt Ideal)) (x1 : (⟨S50000x64, .f32⟩ : BufTy).Contents (Elt Ideal)) (e : Fin 800000) (k : Fin 64) :
    val_main_v17 (F := Ideal) x0 x1 (ix2 e k) = x1 (ix2 (node (val_main_v16 (F := Ideal) x0) e) k) := by
  unfold val_main_v17
  rw [gather_dims_eq]
  exact gather_rows_apply (by decide) _ x1 (val_main_v16 (F := Ideal) x0) e k

/-- Column `64 · 0 + k` of the joined array is column k of its piece 0. -/
theorem cat_apply0 (x0 : (⟨S2x800000, .i32⟩ : BufTy).Contents (Elt Ideal)) (x1 : (⟨S50000x64, .f32⟩ : BufTy).Contents (Elt Ideal)) (x2 : (⟨S800000x64, .f32⟩ : BufTy).Contents (Elt Ideal)) (e : Fin 800000) (k : Fin 64) :
    val_main_v18 (F := Ideal) x0 x1 x2 (ix2 e (wrow 0 k)) = val_main_v10 (F := Ideal) x0 x1 (ix2 e k) := by
  unfold val_main_v18
  refine concatenate_apply_piece (1 : Fin S800000x192.rank) _ _ (ix2 e (wrow 0 k)) 0 (by simp) S800000x64 _ rfl rfl 0 (by rfl)
    (ix2 e k) ?_ ?_
  · intro b
    match b with
    | ⟨0, _⟩ => exact fun _ => rfl
    | ⟨1, _⟩ => exact fun h => absurd rfl h
  · show 0 + k.val = 64 * (0 : Fin 3).val + k.val
    simp

/-- Column `64 · 1 + k` of the joined array is column k of its piece 1. -/
theorem cat_apply1 (x0 : (⟨S2x800000, .i32⟩ : BufTy).Contents (Elt Ideal)) (x1 : (⟨S50000x64, .f32⟩ : BufTy).Contents (Elt Ideal)) (x2 : (⟨S800000x64, .f32⟩ : BufTy).Contents (Elt Ideal)) (e : Fin 800000) (k : Fin 64) :
    val_main_v18 (F := Ideal) x0 x1 x2 (ix2 e (wrow 1 k)) = val_main_v17 (F := Ideal) x0 x1 (ix2 e k) := by
  unfold val_main_v18
  refine concatenate_apply_piece (1 : Fin S800000x192.rank) _ _ (ix2 e (wrow 1 k)) 1 (by simp) S800000x64 _ rfl rfl 64 (by rfl)
    (ix2 e k) ?_ ?_
  · intro b
    match b with
    | ⟨0, _⟩ => exact fun _ => rfl
    | ⟨1, _⟩ => exact fun h => absurd rfl h
  · show 64 + k.val = 64 * (1 : Fin 3).val + k.val
    simp

/-- Column `64 · 2 + k` of the joined array is column k of its piece 2. -/
theorem cat_apply2 (x0 : (⟨S2x800000, .i32⟩ : BufTy).Contents (Elt Ideal)) (x1 : (⟨S50000x64, .f32⟩ : BufTy).Contents (Elt Ideal)) (x2 : (⟨S800000x64, .f32⟩ : BufTy).Contents (Elt Ideal)) (e : Fin 800000) (k : Fin 64) :
    val_main_v18 (F := Ideal) x0 x1 x2 (ix2 e (wrow 2 k)) = x2 (ix2 e k) := by
  unfold val_main_v18
  refine concatenate_apply_piece (1 : Fin S800000x192.rank) _ _ (ix2 e (wrow 2 k)) 2 (by simp) S800000x64 _ rfl rfl 128 (by rfl)
    (ix2 e k) ?_ ?_
  · intro b
    match b with
    | ⟨0, _⟩ => exact fun _ => rfl
    | ⟨1, _⟩ => exact fun h => absurd rfl h
  · show 128 + k.val = 64 * (2 : Fin 3).val + k.val
    simp

/-- The product with the weight matrix at (e, j): the three sums over 64 of the three pieces against the three row blocks. -/
theorem dot_apply (x0 : (⟨S2x800000, .i32⟩ : BufTy).Contents (Elt Ideal)) (x1 : (⟨S50000x64, .f32⟩ : BufTy).Contents (Elt Ideal)) (x2 : (⟨S800000x64, .f32⟩ : BufTy).Contents (Elt Ideal)) (x4 : (⟨S192x20, .f32⟩ : BufTy).Contents (Elt Ideal)) (e : Fin 800000) (j : Fin 20) :
    val_main_v19 (F := Ideal) x0 x1 x2 x4 (ix2 e j)
      = (∑ k : Fin 64, x1 (ix2 (node (val_main_v9 (F := Ideal) x0) e) k) * x4 (ix2 (wrow 0 k) j)
          + ∑ k : Fin 64, x1 (ix2 (node (val_main_v16 (F := Ideal) x0) e) k) * x4 (ix2 (wrow 1 k) j))
        + ∑ k : Fin 64, x2 (ix2 e k) * x4 (ix2 (wrow 2 k) j) := by
  rw [val_main_v19_apply]
  have hl : ∀ k : Fin 192, lidx_main_v19 (ix2 e j) k = ix2 e k := fun k => funext fun a => by
    match a with
    | ⟨0, _⟩ => rfl
    | ⟨1, _⟩ => rfl
  have hr : ∀ k : Fin 192, ridx_main_v19 (ix2 e j) k = ix2 k j := fun k => funext fun a => by
    match a with
    | ⟨0, _⟩ => rfl
    | ⟨1, _⟩ => rfl
  simp only [hl, hr]
  rw [sum_three_blocks]
  simp only [cat_apply0, cat_apply1, cat_apply2, gather10_apply, gather17_apply]

/-- The bias row broadcast over the edges, at (e, j): b(j). -/
theorem bias_apply (x5 : (⟨S20, .f32⟩ : BufTy).Contents (Elt Ideal)) (e : Fin 800000) (j : Fin 20) :
    val_main_v21 (F := Ideal) x5 (ix2 e j) = x5 (ix1 j) := by
  rw [val_main_v21_apply, val_main_v20_apply]
  congr 1
  funext a
  match a with
  | ⟨0, _⟩ => rfl

/-- The rectifier's second operand is 0 everywhere. -/
theorem zero_apply (i : S800000x20.Idx) : val_main_call0_v0 (F := Ideal) i = (0 : EReal) := by
  rw [val_main_call0_v0_apply, val_main_call0_cst_apply]
  exact Ideal.ofBits_zero_f32

/-- THE REFERENCE'S MESSAGE ARRAY IS THE SPECIFICATION'S, on the reference's own two columns of start-index words. -/
theorem msg_eq (x0 : (⟨S2x800000, .i32⟩ : BufTy).Contents (Elt Ideal)) (x1 : (⟨S50000x64, .f32⟩ : BufTy).Contents (Elt Ideal)) (x2 : (⟨S800000x64, .f32⟩ : BufTy).Contents (Elt Ideal)) (x4 : (⟨S192x20, .f32⟩ : BufTy).Contents (Elt Ideal)) (x5 : (⟨S20, .f32⟩ : BufTy).Contents (Elt Ideal)) :
    val_main_v23 (F := Ideal) x0 x1 x2 x4 x5 = Cert.Msg.msg (val_main_v9 (F := Ideal) x0) (val_main_v16 (F := Ideal) x0) x1 x2 x4 x5 := by
  funext i
  obtain ⟨e, j, rfl⟩ : ∃ (e : Fin 800000) (j : Fin 20), i = ix2 e j := ⟨i 0, i 1, eq_ix2 i⟩
  rw [msg_apply, val_main_v23_apply, val_main_v22_apply, dot_apply, bias_apply, zero_apply]
  rfl

end Cert.Msg.Ref

end
-- ==== Proof.KerRun.lean ====
/-
  The kernel program's run, read as a value.

  Every weakly fair execution of the idealized kernel program terminates with its result at the tail of the message array
  of its arguments — the region's output array is that message array (the blocks tile it, each block the body's arithmetic
  of the arrays the host operations before the region prepared), and the operations after the region are the tail — and
  with its arguments unchanged.
-/
import proofs.«142475_j64630667870278_2_alg».proof.Proof.KerFinal
import proofs.«142475_j64630667870278_2_alg».proof.Proof.KerHost
import proofs.«142475_j64630667870278_2_alg».proof.Proof.KerTail
import proofs.«142475_j64630667870278_2_alg».proof.Proof.RefMsg

set_option maxRecDepth 16384

noncomputable section

namespace Cert.Msg.KerRun

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- The arrays the region reads are the projections gathered by source and by destination, the edge block of the weights
    and the bias row. -/
theorem reads : Cert.Msg.KerFinal.Reads m c :=
  ⟨Cert.Msg.KerHost.gsrc_apply m c, Cert.Msg.KerHost.gdst_apply m c, Cert.Msg.KerHost.wedge_apply m c,
    Cert.Msg.KerHost.bias_apply m c⟩

/-- The result's value: the tail of the reference's message stage of the kernel's arguments, and of its destination
    words. -/
def result : (⟨Cert.ReferenceIdeal.S512x1, .f32⟩ : BufTy).Contents (Elt Ideal) :=
  Cert.Msg.tail (F := Ideal)
    (Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)))
    (Cert.ReferenceIdeal.Read.val_main_v3 (F := Ideal) (m ((c.tc : Thread nD τ).loc main_arg0)))
    (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

set_option backward.isDefEq.respectTransparency.types false in
theorem value :
    Pipeline.afterTail₀ cfgs (dats m) 0 (V0 m) [hostOps1, hostOps1_1, hostOps1_2, hostOps1_3, hostOps1_4, hostOps1_5, hostOps1_6] c main_v55
      = result m c := by
  rw [Cert.Msg.KerTail.result_eq m c, Cert.Msg.KerFinal.final m c (reads m c), Cert.Msg.KerHost.dst_eq m c]
  unfold result Cert.Msg.KerFinal.spec
  rw [Cert.Msg.Ref.msg_eq]

set_option backward.isDefEq.respectTransparency.types false in
/-- THE RUN: the result at the tail of the message array, the arguments unchanged. -/
theorem run : θ_run defs (onTc (τ := τ) (main (F := Ideal))) ⟨m, fun _ => 0, ρ⟩ (fun r => ∀ c : Dev nD,
      r.2.mem ((c.tc : Thread nD τ).loc main_v55) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v55 (Pipeline.mem_restRefs_of main_v55 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.Msg.KerRun

end
-- ==== Proof.lean ====
/- The proof of `Cert.Claim`: a message-passing layer whose per-edge messages the kernel computes from node features
   projected BEFORE they are gathered, against a reference that gathers the node features and multiplies the concatenation
   [source features, destination features, edge features] by the whole weight matrix.

   On the extended reals the two message arrays are one function: a row gather commutes with a matrix product on the right
   (both programs clamp the same normalised index word into [0, 49999]), and a sum over the 192 rows of the weight matrix is
   the sum over its three blocks of 64, which needs only that addition is commutative and associative — no finiteness of
   the inputs is used. Proof/MsgSpec.lean states that function; Proof/RefMsg.lean shows the reference's message stage is
   it; Proof/KerHost.lean, Proof/KerPay.lean and Proof/KerFinal.lean show the kernel's region leaves it in its output array
   (what the host operations before the region prepare, the body's arithmetic at an entry, the 80 blocks tiling the
   800000 edges). Both programs then apply the same operations (two segment sums and four affine layers), carried as the one
   function Proof/Tail.lean names and never opened (Proof/KerTail.lean, Proof/KerRun.lean).
   The three frames are the generated frame runs; the idealization rewrote nothing, so `preserves` is trivial. -/
import proofs.«142475_j64630667870278_2_alg».proof.Defs
import proofs.«142475_j64630667870278_2_alg».proof.Proof.Gen.Kernel
import proofs.«142475_j64630667870278_2_alg».proof.Proof.Gen.Kernel.Skeleton
import proofs.«142475_j64630667870278_2_alg».proof.Proof.Gen.Kernel.Launch
import proofs.«142475_j64630667870278_2_alg».proof.Proof.Gen.Kernel.Points
import proofs.«142475_j64630667870278_2_alg».proof.Proof.Gen.Kernel.Frame
import proofs.«142475_j64630667870278_2_alg».proof.Proof.Gen.KernelIdeal
import proofs.«142475_j64630667870278_2_alg».proof.Proof.Gen.KernelIdeal.Skeleton
import proofs.«142475_j64630667870278_2_alg».proof.Proof.Gen.KernelIdeal.Launch
import proofs.«142475_j64630667870278_2_alg».proof.Proof.Gen.KernelIdeal.Points
import proofs.«142475_j64630667870278_2_alg».proof.Proof.Gen.KernelIdeal.Frame
import proofs.«142475_j64630667870278_2_alg».proof.Proof.Gen.ReferenceIdeal
import proofs.«142475_j64630667870278_2_alg».proof.Proof.Gen.Pre_finite_inputs
import proofs.«142475_j64630667870278_2_alg».proof.Proof.Gen.ReferenceIdeal.Run
import proofs.«142475_j64630667870278_2_alg».proof.Proof.Gen.ReferenceIdeal.Read
import proofs.«142475_j64630667870278_2_alg».proof.Proof.Tail
import proofs.«142475_j64630667870278_2_alg».proof.Proof.KerRun
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the tail of the message array: the kernel's by `KerRun.run`, the reference's because
    its result is the tail of its message stage (`ref_tail`), at arguments that agree. -/
theorem algebraic : Cert.algebraic_KernelIdeal_ReferenceIdeal := by
  intro m ρ m' ρ' _ hagree
  refine ⟨fun c => Cert.Msg.KerRun.result m c, Cert.Msg.KerRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.Msg.ref_tail]
  obtain ⟨h0, h1, h2, h3, h4, h5, h6, h7, h8, h9, h10, h11, h12, h13⟩ := hagree c
  rw [h0, h1, h2, h3, h4, h5, h6, h7, h8, h9, h10, h11, h12, h13]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
